-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg4
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x8 : Shape := ⟨2, ![100000, 8]⟩
abbrev S5000x8 : Shape := ⟨2, ![5000, 8]⟩
abbrev S1700000x8 : Shape := ⟨2, ![1700000, 8]⟩
abbrev S1x8 : Shape := ⟨2, ![1, 8]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x8, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x8, .f32⟩
  | .hbm, ⟨78, _⟩ => ⟨S1700000x1, .f32⟩
  | .hbm, ⟨79, _⟩ => ⟨S1700000x8, .f32⟩
  | .hbm, ⟨80, _⟩ => ⟨S1700000x8, .f32⟩
  | .hbm, ⟨81, _⟩ => ⟨S_, .f32⟩
  | .hbm, ⟨82, _⟩ => ⟨S100000x8, .f32⟩
  | .hbm, ⟨83, _⟩ => ⟨S1700000x1, .i32⟩
  | .hbm, ⟨84, _⟩ => ⟨S100000x8, .f32⟩
  | .hbm, ⟨85, _⟩ => ⟨S1x8, .f32⟩
  | .hbm, ⟨86, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S5000x8_S5000x8_0_0 : ∀ a, (![0, 0] : Fin 2 → Nat) a + S5000x8.size a ≤ S5000x8.size a
  h_S5000x8 : 0 < S5000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x8.size a ≤ S128x8.size a
  hwx2_1 : ∀ i : grid2.Coords, EltTy.bits .f32 = 32 ∨ (Rect.block (s := S128x8) S128x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1700000x8 : Shape := ⟨2, ![1700000, 8]⟩
abbrev S1x8 : Shape := ⟨2, ![1, 8]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x8, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x8, .f32⟩
  | .hbm, ⟨82, _⟩ => ⟨S1700000x1, .f32⟩
  | .hbm, ⟨83, _⟩ => ⟨S1700000x8, .f32⟩
  | .hbm, ⟨84, _⟩ => ⟨S1700000x8, .f32⟩
  | .hbm, ⟨85, _⟩ => ⟨S_, .f32⟩
  | .hbm, ⟨86, _⟩ => ⟨S100000x8, .f32⟩
  | .hbm, ⟨87, _⟩ => ⟨S1700000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.RunVal.lean ====
/-
  The kernel program's run, with its result named.

  The program is four pipelined regions among stretches of host operations.  Every weakly fair execution ends, without a
  fault, in a state whose result buffer holds what the chain of boundary contents gives it — the launch memory pushed
  through each stretch's operations and each region's write-backs in turn, up to the exit of the last region — and
  whose argument arrays are as launched.  The statement is the frame's, with the result buffer read off the same last
  boundary as the arguments are.
-/
import proofs.«140870_j15333033247254_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunVal

end
-- ==== Proof.Spec.lean ====
/-
  The reference program's result, written out stage by stage.

  A two-layer graph convolution over 100000 nodes.  From the edge list the program builds, once, the source and
  destination of every edge with a self loop appended for every node, the degree of every node (a scatter-add of ones
  over the destinations), its inverse square root where the degree is positive and zero elsewhere, and the weight of an
  edge, the product of that quantity at its two ends.  A layer multiplies the node features by a weight matrix,
  gathers the product's rows at the edges' sources, scales each gathered row by its edge's weight, adds the rows up at
  the edges' destinations and adds a bias to every row.  The first layer is followed by a maximum with zero, the second
  by a log-softmax along each row: the row minus its maximum, minus the logarithm of the sum of the exponentials of
  that difference.

  Every stage below is the operation the program applies, spelt as the program spells it, with the stages it reads
  passed in as arguments; `out` composes them.  The stages that only move data — the gathers and scatter-adds of the
  aggregation, the graph's construction — are never opened by the proof: both programs apply them to equal arrays.
-/
import proofs.«140870_j15333033247254_1_alg».proof.Proof.Gen.ReferenceIdeal
import Idealize.ShloMosaic.PureOps.Ideal

noncomputable section

namespace Cert.ReferenceIdeal.Spec

open Cert.ReferenceIdeal Cert.ReferenceIdeal.Gen Idealize.ShloMosaic Idealize.ShloMosaic.TcCoe

/-- The edges' sources: row 0 of the edge list, then every node once (the self loops). -/
def src (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge list, then every node once. -/
def dst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node's degree: how many edges end at it, as a sum of ones. -/
def deg (e : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (broadcastInDim S1700000 ![] bcast_S_S1700000 (constant S_ .f32 0x3F800000#32))

/-- Where the degree is positive. -/
def degPos (e : IVec S2x1600000 32) : IVec S100000 1 :=
  cmpf (F := Ideal) .ogt (deg e) (broadcastInDim S100000 ![] bcast_S_S100000 (constant S_ .f32 0x00000000#32))

/-- The inverse square root of the degree, the degree taken as at least one. -/
def degRsqrt (e : IVec S2x1600000 32) : FVec Ideal S100000 .f32 :=
  Host.rsqrt (maximumf (deg e) (broadcastInDim S100000 ![] bcast_S_S100000 (constant S_ .f32 0x3F800000#32)))

/-- The choice between an array and a scalar spread over the nodes, by a mask. -/
def disOf (p : IVec S100000 1) (q : FVec Ideal S100000 .f32) (z : FVec Ideal S_ .f32) : FVec Ideal S100000 .f32 :=
  select p q (broadcastInDim S100000 ![] bcast_S_S100000 (id z))

/-- The inverse square root of the degree (of at least one), and zero at a node no edge ends at. -/
def dis (e : IVec S2x1600000 32) : FVec Ideal S100000 .f32 :=
  disOf (degPos e) (degRsqrt e) (constant S_ .f32 0x00000000#32)

/-- A list of node numbers as gather indices: a negative number counts from the end, and each becomes a one-entry row. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The edge weights from a per-node array `q`, the sources `s` and the destinations `d`: `q` at the two ends, multiplied. -/
def normOf (q : FVec Ideal S100000 .f32) (s d : IVec S1700000 32) : FVec Ideal S1700000 .f32 :=
  mulf (Host.gather gather_S100000_S1700000x1_S1700000_n_0_n_n_0_1_1 q (wrap s)) (Host.gather gather_S100000_S1700000x1_S1700000_n_0_n_n_0_1_1 q (wrap d))

/-- An edge's weight: the inverse square roots of the degrees at its two ends, multiplied. -/
def norm (e : IVec S2x1600000 32) : FVec Ideal S1700000 .f32 :=
  normOf (dis e) (src e) (dst e)

/-- The first layer's product of the features by its weight matrix. -/
def mm1 (x : FVec Ideal S100000x128 .f32) (w : FVec Ideal S128x128 .f32) : FVec Ideal S100000x128 .f32 :=
  Host.dotGeneral dot_S100000x128_S128x128_S100000x128_1_0_0_1_n_n none x w

/-- The aggregation of 128-wide rows over given sources `s`, destinations `d` and edge weights `n`: the rows gathered at
    the sources, scaled by the weights, added up at the destinations. -/
def aggr128 (s d : IVec S1700000 32) (n : FVec Ideal S1700000 .f32) (xw : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 xw (wrap s)) (broadcastInDim S1700000x128 ![0, 1] bcast_S1700000x1_S1700000x128_0_1 (broadcastInDim S1700000x1 ![0] bcast_S1700000_S1700000x1_0 n)))

/-- The aggregation of 128-wide rows over the graph of the edge list `e`. -/
def agg128 (e : IVec S2x1600000 32) (xw : FVec Ideal S100000x128 .f32) : FVec Ideal S100000x128 .f32 :=
  aggr128 (src e) (dst e) (norm e) xw

/-- The aggregated rows plus the first bias. -/
def biased128 (a : FVec Ideal S100000x128 .f32) (b : FVec Ideal S128 .f32) : FVec Ideal S100000x128 .f32 :=
  addf a (broadcastInDim S100000x128 ![0, 1] bcast_S1x128_S100000x128_0_1 (broadcastInDim S1x128 ![1] bcast_S128_S1x128_1 b))

/-- The cut-off below at zero. -/
def relu (x : FVec Ideal S100000x128 .f32) : FVec Ideal S100000x128 .f32 :=
  maximumf x (broadcastInDim S100000x128 ![] bcast_S_S100000x128 (constant S_ .f32 0x00000000#32))

/-- The hidden features: the aggregated rows plus the bias, cut off below at zero. -/
def hidden (a : FVec Ideal S100000x128 .f32) (b : FVec Ideal S128 .f32) : FVec Ideal S100000x128 .f32 :=
  relu (biased128 a b)

/-- The second layer's product of the hidden features by its weight matrix. -/
def mm2 (h : FVec Ideal S100000x128 .f32) (w : FVec Ideal S128x8 .f32) : FVec Ideal S100000x8 .f32 :=
  Host.dotGeneral dot_S100000x128_S128x8_S100000x8_1_0_0_1_n_n none h w

/-- The aggregation of 8-wide rows over given sources, destinations and edge weights. -/
def aggr8 (s d : IVec S1700000 32) (n : FVec Ideal S1700000 .f32) (xw : FVec Ideal S100000x8 .f32) : FVec Ideal S100000x8 .f32 :=
  Host.scatterAdd scatter_S100000x8_S1700000x1_S1700000x8_1_0_0_1 (broadcastInDim S100000x8 ![] bcast_S_S100000x8 (constant S_ .f32 0x00000000#32)) (broadcastInDim S1700000x1 ![0] bcast_S1700000_S1700000x1_0 d) (mulf (Host.gather gather_S100000x8_S1700000x1_S1700000x8_1_0_n_n_0_1_18 xw (wrap s)) (broadcastInDim S1700000x8 ![0, 1] bcast_S1700000x1_S1700000x8_0_1 (broadcastInDim S1700000x1 ![0] bcast_S1700000_S1700000x1_0 n)))

/-- The aggregation of 8-wide rows over the graph of the edge list `e`. -/
def agg8 (e : IVec S2x1600000 32) (xw : FVec Ideal S100000x8 .f32) : FVec Ideal S100000x8 .f32 :=
  aggr8 (src e) (dst e) (norm e) xw

/-- The logits: the aggregated rows plus the second bias. -/
def logits (a : FVec Ideal S100000x8 .f32) (b : FVec Ideal S8 .f32) : FVec Ideal S100000x8 .f32 :=
  addf a (broadcastInDim S100000x8 ![0, 1] bcast_S1x8_S100000x8_0_1 (broadcastInDim S1x8 ![1] bcast_S8_S1x8_1 b))

/-- Every row's maximum, taken from minus infinity and once more against it. -/
def rowMaxes (z : FVec Ideal S100000x8 .f32) : FVec Ideal S100000 .f32 :=
  maximumf (broadcastInDim S100000 ![] bcast_S_S100000 (constant S_ .f32 0xFF800000#32)) (Host.reduce FloatOps.maximumf z (constant S_ .f32 0xFF800000#32) reducesTo_S100000x8_S100000_d1 h_S_)

/-- Every row minus a per-row quantity. -/
def shiftBy (z : FVec Ideal S100000x8 .f32) (mx : FVec Ideal S100000 .f32) : FVec Ideal S100000x8 .f32 :=
  subf z (broadcastInDim S100000x8 ![0, 1] bcast_S100000x1_S100000x8_0_1 (broadcastInDim S100000x1 ![0] bcast_S100000_S100000x1_0 mx))

/-- A row minus its maximum. -/
def shifted (z : FVec Ideal S100000x8 .f32) : FVec Ideal S100000x8 .f32 :=
  shiftBy z (rowMaxes z)

/-- Every row's sum of exponentials, as a column. -/
def rowSums (s : FVec Ideal S100000x8 .f32) : FVec Ideal S100000x1 .f32 :=
  broadcastInDim S100000x1 ![0] bcast_S100000_S100000x1_0 (Host.reduceAdd (Host.exp s) (constant S_ .f32 0x00000000#32) reducesTo_S100000x8_S100000_d1 h_S_)

/-- Every row minus the logarithm of a per-row column. -/
def lsmFrom (s : FVec Ideal S100000x8 .f32) (sums : FVec Ideal S100000x1 .f32) : FVec Ideal S100000x8 .f32 :=
  subf s (broadcastInDim S100000x8 ![0, 1] bcast_S100000x1_S100000x8_0_1 (Host.log sums))

/-- The log-softmax of every row. -/
def logSoftmax (z : FVec Ideal S100000x8 .f32) : FVec Ideal S100000x8 .f32 :=
  lsmFrom (shifted z) (rowSums (shifted z))

/-- The whole reference: two layers and the log-softmax. -/
def out (x : FVec Ideal S100000x128 .f32) (e : IVec S2x1600000 32) (w1 : FVec Ideal S128x128 .f32) (b1 : FVec Ideal S128 .f32)
    (w2 : FVec Ideal S128x8 .f32) (b2 : FVec Ideal S8 .f32) : FVec Ideal S100000x8 .f32 :=
  logSoftmax (logits (agg8 e (mm2 (hidden (agg128 e (mm1 x w1)) b1) w2)) b2)

end Cert.ReferenceIdeal.Spec

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«140870_j15333033247254_1_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibRowSoftmax.lean ====
/-
  The log-softmax of a row, and the two ways the programs spell it on a matrix.

  For a row z of extended reals and a starting value b for the maximum, the log-softmax at position j is
  (z j − M) − log Σ_k exp (z k − M) with M the maximum of b and the row's entries.  A kernel computes it on an [a, b]
  block with lane reductions kept as columns and broadcast back across the lanes; a host program computes it with
  reductions from an initial value, takes the maximum of the row maximum with the initial value once more, and lays the
  columns out by broadcasts.  Read at entry (r, j), both are the row function at row r: the second maximum changes
  nothing because the fold already starts from b, and the host's sum starts from zero.
-/
import Idealize.ShloMosaic.PureOps.Ideal.Laws
import Idealize.ShloMosaic.Lib.IdealHost
import Idealize.ShloMosaic.Lib.ValueLayout
import proofs.«140870_j15333033247254_1_alg».proof.Proof.LibColumns
import proofs.«140870_j15333033247254_1_alg».proof.Proof.LibRowSums

open scoped BigOperators

noncomputable section

namespace Cert.LibRowSoftmax

open Idealize.ShloMosaic Idealize.ShloMosaic.ValueIdx

/-- The maximum of a starting value and the entries of a row. -/
def rowMax {n : ℕ} (b : EReal) (z : Fin n → EReal) : EReal := (Finset.univ : Finset (Fin n)).fold max b z

/-- The log-softmax of a row at position `j`, the maximum taken from the starting value `b`. -/
def lsm {n : ℕ} (b : EReal) (z : Fin n → EReal) (j : Fin n) : EReal :=
  (z j - rowMax b z) - Ideal.log (∑ k : Fin n, Ideal.exp (z k - rowMax b z))

/-- The fold of a maximum from `b` is at least `b`, so taking the maximum with `b` once more changes nothing. -/
theorem max_rowMax {n : ℕ} (b : EReal) (z : Fin n → EReal) : max b (rowMax b z) = rowMax b z :=
  max_eq_right ((Finset.le_fold_max b).mpr (Or.inl le_rfl))

/-- A KERNEL's row maximum kept as a column and broadcast back: at `(r, j)` it is the row's maximum from the
    accumulator's value. -/
theorem laneMax_apply {a b : ℕ} (z : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    broadcastTo ⟨2, ![a, b]⟩ (shapeCast ⟨2, ![a, 1]⟩ (multiReduction .maximumf [1] ⟨1, ![a]⟩ z acc h hφ hacc) hc) hb (ix2 r j)
      = rowMax (Ideal.ofBits .f32 acc) (fun k => z (ix2 r k)) := by
  rw [Cert.LibColumns.broadcastTo_a1_ab_apply, Cert.LibColumns.shapeCast_a_a1_apply]
  refine (Ideal.multiReduction_maximumf_single z acc h hφ hacc (ix1 r)).trans ?_
  show (Finset.univ : Finset (Fin b)).fold max (Ideal.ofBits .f32 acc) (fun k => z (h.lift (ix1 r) k)) = _
  unfold rowMax
  exact congrArg (fun f : Fin b → EReal => Finset.fold max (Ideal.ofBits .f32 acc) f Finset.univ)
    (funext fun k => congrArg z (Cert.LibRowSums.lift_row h r k))

/-- A KERNEL's log-softmax of an [a, b] block, read at `(r, j)`: the row function at row `r`. -/
theorem kernel_apply {a b : ℕ} (z : FVec Ideal ⟨2, ![a, b]⟩ .f32) (accM accS : BitVec 32)
    (h : (⟨2, ![a, b]⟩ : Shape).Reduces [1] ⟨1, ![a]⟩) (hφ : FKind.Formats .f32)
    (haccM : accM = FKind.maximumf.neutral .f32 hφ) (haccS : accS = FKind.add.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    subf (subf z (broadcastTo ⟨2, ![a, b]⟩ (shapeCast ⟨2, ![a, 1]⟩ (multiReduction .maximumf [1] ⟨1, ![a]⟩ z accM h hφ haccM) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z accM h hφ haccM) hc) hb)))
          accS h hφ haccS) hc)) hb) (ix2 r j)
      = lsm (Ideal.ofBits .f32 accM) (fun k => z (ix2 r k)) j := by
  have hM : ∀ k : Fin b, subf z (broadcastTo ⟨2, ![a, b]⟩ (shapeCast ⟨2, ![a, 1]⟩ (multiReduction .maximumf [1] ⟨1, ![a]⟩ z accM h hφ haccM) hc) hb) (ix2 r k)
      = z (ix2 r k) - rowMax (Ideal.ofBits .f32 accM) (fun k => z (ix2 r k)) := fun k => by
    rw [subf_apply, laneMax_apply]
  rw [subf_apply, hM j, Cert.LibColumns.broadcastTo_a1_ab_apply]
  show _ - Ideal.log (shapeCast ⟨2, ![a, 1]⟩ (multiReduction (F := Ideal) .add [1] ⟨1, ![a]⟩ _ accS h hφ haccS) hc (ix2 r (0 : Fin 1))) = _
  rw [Cert.LibRowSums.laneSum_apply]
  unfold lsm
  refine congrArg (fun s => _ - Ideal.log s) (Finset.sum_congr rfl fun k _ => ?_)
  show Ideal.exp (subf z _ (ix2 r k)) = _
  rw [hM k]

/-- A HOST program's row maximum, taken once more with the initial value, laid out as a column and broadcast across:
    at `(r, j)` it is the row's maximum from the initial value. -/
theorem hostMax_apply {a b : ℕ} {u : Shape} (z : FVec Ideal ⟨2, ![a, b]⟩ .f32) (init : u.Idx → Ideal .f32) (v : EReal)
    (h' : (⟨2, ![a, b]⟩ : Shape).ReducesTo [1] ⟨1, ![a]⟩) (hu : 0 < u.numel) (hv : init (Shape.Idx.first hu) = v)
    (h : (⟨2, ![a, b]⟩ : Shape).Reduces [1] ⟨1, ![a]⟩)
    (hb1 : (⟨1, ![a]⟩ : Shape).BroadcastsInDim ⟨2, ![a, 1]⟩ ![0]) (hb2 : (⟨2, ![a, 1]⟩ : Shape).BroadcastsInDim ⟨2, ![a, b]⟩ ![0, 1])
    (w : FVec Ideal ⟨1, ![a]⟩ .f32) (hw : ∀ i, w i = v) (r : Fin a) (j : Fin b) :
    broadcastInDim ⟨2, ![a, b]⟩ ![0, 1] hb2 (broadcastInDim ⟨2, ![a, 1]⟩ ![0] hb1
        (maximumf w (Host.reduce FloatOps.maximumf z init h' hu))) (ix2 r j)
      = rowMax v (fun k => z (ix2 r k)) := by
  rw [Cert.LibRowSums.broadcastInDim_a1_ab_apply, Cert.LibRowSums.broadcastInDim_a_a1_apply, maximumf_apply, hw,
    Host.reduce_eq_fold_single FloatOps.maximumf z init h' h hu, hv]
  refine Eq.trans ?_ (max_rowMax v _)
  unfold rowMax
  show max v (Finset.fold max v (fun k => z (h.lift (ix1 r) k)) Finset.univ) = _
  exact congrArg (fun f : Fin b → EReal => max v (Finset.fold max v f Finset.univ))
    (funext fun k => congrArg z (Cert.LibRowSums.lift_row h r k))

end Cert.LibRowSoftmax

end
-- ==== Proof.LibHostDot.lean ====
/-
  The host's matrix product read at one entry, over the extended reals.

  A `dot_general` of an [A, K] matrix by a [K, B] matrix that contracts the left operand's second axis with the
  right operand's first has at entry (r, j) the value Σ_k lhs[r, k] · rhs[k, j]: over the extended reals the host's
  product is the exact sum, whatever order a schedule would add it in.  The same statement for a product accumulated
  into the zero matrix is `Cert.LibMatmul.plain_matmul_zero_apply`; the two sums are term for term the same.
-/
import Idealize.ShloMosaic.PureOps.Ideal.Laws
import Idealize.ShloMosaic.Lib.ValueIdx

noncomputable section

namespace Cert.LibHostDot

open Idealize.ShloMosaic Idealize.ShloMosaic.ValueIdx

/-- Entry (r, j) of the host's plain matrix product is the sum over the contracted axis. -/
theorem plain_dotGeneral_apply {A K B : Nat} {φ₁ φ₂ : FTy} (prec : Option ContractPrecision) (sched : HostSchedule)
    (lhs : FVec Ideal ⟨2, ![A, K]⟩ φ₁) (rhs : FVec Ideal ⟨2, ![K, B]⟩ φ₂) (r : Fin A) (j : Fin B) :
    FloatOps.dotGeneral (DotDims.plain A K B) prec sched lhs rhs (ix2 r j)
      = ∑ k : Fin K, lhs (ix2 r k) * rhs (ix2 k j) := by
  rw [Ideal.dotGeneral_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibHostDot

end
-- ==== Proof.LibRowBias.lean ====
/-
  A bias vector spread over the rows of a matrix, on the host: [b] → [1, b] → [a, b].

  The host writes "add the vector x to every row" as two broadcasts: first x becomes the single row of a [1, b]
  matrix, then that row is repeated a times.  Read at entry (r, j) the result is x[j], whatever the row r.
-/
import Idealize.ShloMosaic.Lib.Pipeline.Value
import Idealize.ShloMosaic.Lib.ValueIdx

noncomputable section

namespace Cert.LibRowBias

open Idealize.ShloMosaic Idealize.ShloMosaic.ValueIdx

/-- Entry (r, j) of a vector broadcast to one row and then to `a` rows is the vector's entry `j`. -/
theorem host_rowBias_apply {a b : Nat} {α : Type}
    (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (r : Fin a) (j : Fin b) :
    broadcastInDim ⟨2, ![a, b]⟩ ![0, 1] h2 (broadcastInDim ⟨2, ![1, b]⟩ ![1] h1 x) (ix2 r j) = x (ix1 j) := by
  have hj : j.val = if b = 1 then 0 else j.val := by
    split
    · next hb => have := j.isLt; omega
    · rfl
  refine (broadcastInDim_apply _ h2 _ (ix2 r j) (ix2 (0 : Fin 1) j) (fun d => ?_)).trans
    (broadcastInDim_apply _ h1 x (ix2 (0 : Fin 1) j) (ix1 j) (fun d => ?_))
  · match d with
    | ⟨0, _⟩ => show (0 : Nat) = if (1 : Nat) = 1 then 0 else r.val; rw [if_pos rfl]
    | ⟨1, _⟩ => exact hj
  · match d with
    | ⟨0, _⟩ => exact hj

end Cert.LibRowBias

end
-- ==== Proof.SpecRead.lean ====
/-
  The reference's dense stages, read at an entry.

  Each of the reference's dense stages — the two matrix products, the bias with its cut-off at zero, the bias of the
  logits and the row-wise log-softmax — read at entry (r, j) of its result, in terms of its operands' entries.  The
  host spells a bias as two broadcasts of the vector, a row maximum as a reduce from minus infinity followed by one
  more maximum with minus infinity, a row sum as a reduce from zero, and a column as two broadcasts; none of that
  changes the value at an entry.
-/
import proofs.«140870_j15333033247254_1_alg».proof.Proof.Spec
import proofs.«140870_j15333033247254_1_alg».proof.Proof.LibRowSoftmax
import proofs.«140870_j15333033247254_1_alg».proof.Proof.LibHostDot
import proofs.«140870_j15333033247254_1_alg».proof.Proof.LibRowBias
import proofs.«140870_j15333033247254_1_alg».proof.Proof.LibRowSums
import Idealize.ShloMosaic.Lib.ValueIdx

set_option maxRecDepth 16384

open scoped BigOperators

noncomputable section

namespace Cert.ReferenceIdeal.Spec

open Cert.ReferenceIdeal Cert.ReferenceIdeal.Gen Idealize.ShloMosaic Idealize.ShloMosaic.TcCoe Idealize.ShloMosaic.ValueIdx

/-- Dropping axis 1 of a 100000 × 8 matrix leaves the 100000 rows: the reduction's shape fact, in the form that names the
    inserted index. -/
theorem reduces_d1 : (⟨2, ![100000, 8]⟩ : Shape).Reduces [1] ⟨1, ![100000]⟩ :=
  reducesTo_S100000x8_S100000_d1.elim fun h hb => ⟨h, Nat.zero_lt_one, hb⟩

/-- Entry (r, j) of the first product is the sum over the contracted axis. -/
theorem mm1_apply (x : FVec Ideal S100000x128 .f32) (w : FVec Ideal S128x128 .f32) (r : Fin 100000) (j : Fin 128) :
    mm1 x w (ix2 r j) = ∑ k : Fin 128, x (ix2 r k) * w (ix2 k j) := by
  unfold mm1
  exact Cert.LibHostDot.plain_dotGeneral_apply (A := 100000) (K := 128) (B := 128) none .single x w r j

/-- Entry (r, j) of the second product is the sum over the contracted axis. -/
theorem mm2_apply (x : FVec Ideal S100000x128 .f32) (w : FVec Ideal S128x8 .f32) (r : Fin 100000) (j : Fin 8) :
    mm2 x w (ix2 r j) = ∑ k : Fin 128, x (ix2 r k) * w (ix2 k j) := by
  unfold mm2
  exact Cert.LibHostDot.plain_dotGeneral_apply (A := 100000) (K := 128) (B := 8) none .single x w r j

/-- Entry (r, j) of the hidden features: the aggregated entry plus the bias of its column, cut off at zero. -/
theorem hidden_apply (a : FVec Ideal S100000x128 .f32) (b : FVec Ideal S128 .f32) (r : Fin 100000) (j : Fin 128) :
    hidden a b (ix2 r j) = max (a (ix2 r j) + b (ix1 j)) (Ideal.ofBits .f32 0x00000000#32) := by
  unfold hidden relu biased128
  show max (a (ix2 r j) + broadcastInDim S100000x128 ![0, 1] _ (broadcastInDim S1x128 ![1] _ b) (ix2 (n0 := 100000) (n1 := 128) r j)) (Ideal.ofBits .f32 0x00000000#32) = _
  rw [Cert.LibRowBias.host_rowBias_apply]

/-- Entry (r, j) of the logits: the aggregated entry plus the bias of its column. -/
theorem logits_apply (a : FVec Ideal S100000x8 .f32) (b : FVec Ideal S8 .f32) (r : Fin 100000) (j : Fin 8) :
    logits a b (ix2 r j) = a (ix2 r j) + b (ix1 j) := by
  unfold logits
  show a (ix2 r j) + broadcastInDim S100000x8 ![0, 1] _ (broadcastInDim S1x8 ![1] _ b) (ix2 (n0 := 100000) (n1 := 8) r j) = _
  rw [Cert.LibRowBias.host_rowBias_apply]

/-- A row minus its maximum, at entry (r, j). -/
theorem shifted_apply (z : FVec Ideal S100000x8 .f32) (r : Fin 100000) (j : Fin 8) :
    shifted z (ix2 r j) = z (ix2 r j) - Cert.LibRowSoftmax.rowMax (Ideal.ofBits .f32 0xFF800000#32) (fun k : Fin 8 => z (ix2 r k)) := by
  unfold shifted shiftBy rowMaxes
  rw [subf_apply]
  refine congrArg (z (ix2 r j) - ·) ?_
  refine Cert.LibRowSoftmax.hostMax_apply (a := 100000) (b := 8) z (constant S_ .f32 0xFF800000#32) (Ideal.ofBits .f32 0xFF800000#32)
    reducesTo_S100000x8_S100000_d1 h_S_ ?_ reduces_d1 _ _ _ ?_ r j
  · rfl
  · intro i; rfl

/-- The host's logarithm and exponential act entry by entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The log-softmax of the reference, at entry (r, j): the row function at row r. -/
theorem logSoftmax_apply (z : FVec Ideal S100000x8 .f32) (r : Fin 100000) (j : Fin 8) :
    logSoftmax z (ix2 r j) = Cert.LibRowSoftmax.lsm (Ideal.ofBits .f32 0xFF800000#32) (fun k : Fin 8 => z (ix2 r k)) j := by
  unfold logSoftmax lsmFrom rowSums
  rw [subf_apply, shifted_apply, Cert.LibRowSums.broadcastInDim_a1_ab_apply, hostLog_apply,
    Cert.LibRowSums.hostRowSum_apply (a := 100000) (b := 8) _ _ _ _ reduces_d1]
  unfold Cert.LibRowSoftmax.lsm
  refine congrArg (fun s : EReal => (z (ix2 r j) - Cert.LibRowSoftmax.rowMax (Ideal.ofBits .f32 0xFF800000#32) (fun k : Fin 8 => z (ix2 r k)))
    - Ideal.log s) ?_
  rw [constant_apply, Ideal.ofBits_zero_f32, zero_add]
  exact Finset.sum_congr rfl fun k _ => by rw [hostExp_apply, shifted_apply]

end Cert.ReferenceIdeal.Spec

end
-- ==== Proof.Graph.lean ====
/-
  The graph's construction, read off the kernel program.

  Before its first region the kernel program builds, with the reference's own operations, the edges' sources and
  destinations (self loops appended) and every edge's weight from the degrees at its two ends.  The construction runs
  in three stretches: the sources, the destinations, the degree's positivity mask and its inverse square root; then the
  choice between that inverse square root and zero by the mask; then the weights, the chosen quantity gathered at the
  two ends of every edge and multiplied.  Each stretch is read from arbitrary contents of the buffers it finds, and the
  three are chained from the launch contents of the edge list.
-/
import proofs.«140870_j15333033247254_1_alg».proof.Proof.Gen.KernelIdeal.Frame
import proofs.«140870_j15333033247254_1_alg».proof.Proof.Spec
import Idealize.ShloMosaic.Lib.StableHlo.Run

set_option maxRecDepth 16384

noncomputable section

namespace Cert.KernelIdeal.Graph

open Cert.KernelIdeal Cert.KernelIdeal.Gen
open Idealize.ShloMosaic Idealize.ShloMosaic.TcCoe Idealize.ShloMosaic.StableHlo
open Idealize.SL Idealize.SL.Sem
open Cert.ReferenceIdeal.Spec

/-- A buffer none of the listed operations writes keeps its contents: each operation's written buffer is another. -/
local macro "keeps" : tactic =>
  `(tactic| exact StableHlo.after_of_forall_not_mem _ _ (List.forall_iff_forall_mem.mp (by
      simp only [List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

section Stretches
variable (V : Valuation τ sig (Elt Ideal))

/-! ## The first stretch -/

set_option maxHeartbeats 4000000 in
theorem first_src : after hostOps0 V (Proc.devRef .tc main_v3) = src (V (Proc.devRef .tc main_arg1)) := by
  after_results_simp
  rfl
set_option maxHeartbeats 4000000 in
theorem first_dst : after hostOps0 V (Proc.devRef .tc main_v6) = dst (V (Proc.devRef .tc main_arg1)) := by
  after_results_simp
  rfl
set_option maxHeartbeats 4000000 in
theorem first_pos : after hostOps0 V (Proc.devRef .tc main_v12) = degPos (V (Proc.devRef .tc main_arg1)) := by
  after_results_simp
  rfl
set_option maxHeartbeats 4000000 in
theorem first_rsqrt : after hostOps0 V (Proc.devRef .tc main_v15) = degRsqrt (V (Proc.devRef .tc main_arg1)) := by
  after_results_simp
  rfl
set_option maxHeartbeats 4000000 in
theorem first_zero : after hostOps0 V (Proc.devRef .tc main_cst_3) = constant (F := Ideal) Cert.ReferenceIdeal.S_ .f32 0x00000000#32 := by
  after_results_simp

/-! ## The second stretch: the choice by the mask -/

set_option maxHeartbeats 4000000 in
theorem second_dis : after hostOps0_1 V (Proc.devRef .tc main_v16)
    = disOf (V (Proc.devRef .tc main_v12)) (V (Proc.devRef .tc main_v15)) (V (Proc.devRef .tc main_cst_3)) := by
  after_results_simp
  rfl
theorem second_v3 : after hostOps0_1 V (Proc.devRef .tc main_v3) = V (Proc.devRef .tc main_v3) := by keeps
theorem second_v6 : after hostOps0_1 V (Proc.devRef .tc main_v6) = V (Proc.devRef .tc main_v6) := by keeps

/-! ## The third stretch: the weights -/

set_option maxHeartbeats 4000000 in
theorem third_norm : after hostOps0_2 V (Proc.devRef .tc main_v31)
    = normOf (V (Proc.devRef .tc main_v16)) (V (Proc.devRef .tc main_v3)) (V (Proc.devRef .tc main_v6)) := by
  after_results_simp
  rfl
theorem third_v3 : after hostOps0_2 V (Proc.devRef .tc main_v3) = V (Proc.devRef .tc main_v3) := by keeps
theorem third_v6 : after hostOps0_2 V (Proc.devRef .tc main_v6) = V (Proc.devRef .tc main_v6) := by keeps

/-! ## The three chained -/

theorem all_src : after hostOps0_2 (after hostOps0_1 (after hostOps0 V)) (Proc.devRef .tc main_v3) = src (V (Proc.devRef .tc main_arg1)) := by
  rw [third_v3, second_v3, first_src]
theorem all_dst : after hostOps0_2 (after hostOps0_1 (after hostOps0 V)) (Proc.devRef .tc main_v6) = dst (V (Proc.devRef .tc main_arg1)) := by
  rw [third_v6, second_v6, first_dst]
theorem all_norm : after hostOps0_2 (after hostOps0_1 (after hostOps0 V)) (Proc.devRef .tc main_v31) = norm (V (Proc.devRef .tc main_arg1)) := by
  rw [third_norm, second_dis, second_v3, second_v6, first_pos, first_rsqrt, first_zero, first_src, first_dst]
  rfl

end Stretches

variable (m : (ℓ : Loc nD τ sig) → Buf (Elt Ideal) ℓ) (ρ : Dev nD → PrngReg)

/-- The edge list as launched. -/
abbrev edges (c : Dev nD) : Buf (Elt Ideal) ((c : Thread nD τ).loc main_arg1) := m ((c : Thread nD τ).loc main_arg1)

/-- At the first region's entry the sources are those of the staged description. -/
theorem W3_src (c : Dev nD) : W3 m ρ c (Proc.devRef .tc main_v3) = src (edges m c) := all_src (W0 m ρ c)
/-- At the first region's entry the destinations are those of the staged description. -/
theorem W3_dst (c : Dev nD) : W3 m ρ c (Proc.devRef .tc main_v6) = dst (edges m c) := all_dst (W0 m ρ c)
/-- At the first region's entry the edge weights are those of the staged description. -/
theorem W3_norm (c : Dev nD) : W3 m ρ c (Proc.devRef .tc main_v31) = norm (edges m c) := all_norm (W0 m ρ c)

end Cert.KernelIdeal.Graph

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.Product1.lean ====
/-
  The first matrix product, block by block.

  The first region multiplies the node features by the first weight matrix 5000 rows at a time: at grid point t it
  reads rows 5000·t … 5000·t + 4999 of the features and the whole weight matrix, multiplies them into a zero
  accumulator, and writes the 5000 × 128 product back over the same rows of its output.  Entry (r, j) of that block is
  Σ_k x[5000·t + r, k] · w[k, j], which is entry (5000·t + r, j) of the whole product; the twenty blocks tile the
  output, so the output array ends as the whole product of the two arrays the region was entered with.
-/
import proofs.«140870_j15333033247254_1_alg».proof.Proof.Gen.KernelIdeal.Frame
import proofs.«140870_j15333033247254_1_alg».proof.Proof.LibMatmul
import Idealize.ShloMosaic.Lib.Pipeline.Value
import Idealize.ShloMosaic.Lib.ValueIdx

set_option maxRecDepth 16384

noncomputable section

namespace Cert.KernelIdeal.Product1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of a 100000 × 128 matrix by a 128 × 128 matrix, entry by entry. -/
def prod (x : S100000x128.Idx → EReal) (w : S128x128.Idx → EReal) : S100000x128.Idx → EReal :=
  fun i => ∑ k : Fin 128, x (ix2 (n0 := 100000) (n1 := 128) (i 0) k) * w (ix2 (n0 := 128) (n1 := 128) k (i 1))

theorem hz : (![0, 0] : Fin 2 → Nat) = fun _ => 0 := funext fun a => by fin_cases a <;> rfl

/-- Entry (r, j) of the body's block product is the sum over the contracted axis. -/
theorem pay_apply (x0 : Vec Ideal S5000x128 .f32) (x1 : Vec Ideal S128x128 .f32) (y : S5000x128.Idx) :
    k0_pay1 x0 x1 y = ∑ k : Fin 128, x0 (ix2 (n0 := 5000) (n1 := 128) (y 0) k) * x1 (ix2 (n0 := 128) (n1 := 128) k (y 1)) := by
  obtain ⟨r, j, rfl⟩ : ∃ (r : Fin 5000) (j : Fin 128), y = ix2 r j := ⟨y 0, y 1, eq_ix2 y⟩
  unfold k0_pay1
  exact Cert.LibMatmul.plain_matmul_zero_apply none _ _ r j

/-- The printed index maps over the grid: the feature and output windows move down by one block per point, the
    weight window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry by entry, the block product of the feature block and the weight block at point `t` is the whole product
    read at the block's place in the output. -/
theorem block_eq (x : S100000x128.Idx → EReal) (w : S128x128.Idx → EReal) (t : Fin cfg0.N) (j : S5000x128.Idx) :
    (∑ k : Fin 128, x (((cfg0.win 0).blk t).view.emb (ix2 (n0 := 5000) (n1 := 128) (j 0) k))
        * w (((cfg0.win 1).blk t).view.emb (ix2 (n0 := 128) (n1 := 128) k (j 1))))
      = prod x w (((cfg0.win 2).blk t).view.emb j) := by
  obtain ⟨e0, e1, e2, e3, e4, e5⟩ := idx_facts t
  unfold prod
  refine Finset.sum_congr rfl fun k _ => ?_
  have h0 : ((cfg0.win 0).blk t).view.emb (ix2 (n0 := 5000) (n1 := 128) (j 0) k)
      = ix2 (n0 := 100000) (n1 := 128) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 (n0 := 128) (n1 := 128) k (j 1))
      = ix2 (n0 := 128) (n1 := 128) k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- What point `t` writes back is block `t` of the whole product of the arrays the region was entered with. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j
    = prod (V c (Pipeline.arrRef spec0 0)) (V c (Pipeline.arrRef spec0 1)) (((cfg0.win 2).blk t).view.emb j)
  refine (pay_apply _ _ j).trans ?_
  exact block_eq (V c (Pipeline.arrRef spec0 0)) (V c (Pipeline.arrRef spec0 1)) t j

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array lies in the block of the point its row belongs to. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product of the feature and weight arrays the region was entered with. -/
theorem final (c : Dev nD) : (dat0 V c).arrAt 2 cfg0.N
    = prod (V c (Pipeline.arrRef spec0 0)) (V c (Pipeline.arrRef spec0 1)) :=
  (dat0 V c).arrAt_eq_of_cover 2 _ (fun t _ => flushed_eq V c t) cover

end Cert.KernelIdeal.Product1

end
-- ==== Proof.Product2.lean ====
/-
  The second matrix product, block by block.

  The third region multiplies the hidden features by the second weight matrix 5000 rows at a time: at grid point t it
  reads rows 5000·t … 5000·t + 4999 of the hidden features and the whole 128 × 8 weight matrix, multiplies them into a
  zero accumulator, and writes the 5000 × 8 product back over the same rows of its output.  Entry (r, j) of that block
  is Σ_k h[5000·t + r, k] · w[k, j], entry (5000·t + r, j) of the whole product; the twenty blocks tile the output, so
  the output array ends as the whole product of the two arrays the region was entered with.
-/
import proofs.«140870_j15333033247254_1_alg».proof.Proof.Gen.KernelIdeal.Frame
import proofs.«140870_j15333033247254_1_alg».proof.Proof.LibMatmul
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of a 100000 × 128 matrix by a 128 × 8 matrix, entry by entry. -/
def prod (x : S100000x128.Idx → EReal) (w : S128x8.Idx → EReal) : S100000x8.Idx → EReal :=
  fun i => ∑ k : Fin 128, x (ix2 (n0 := 100000) (n1 := 128) (i 0) k) * w (ix2 (n0 := 128) (n1 := 8) k (i 1))

theorem hz : (![0, 0] : Fin 2 → Nat) = fun _ => 0 := funext fun a => by fin_cases a <;> rfl

/-- Entry (r, j) of the body's block product is the sum over the contracted axis. -/
theorem pay_apply (x0 : Vec Ideal S5000x128 .f32) (x1 : Vec Ideal S128x8 .f32) (y : S5000x8.Idx) :
    k2_pay1 x0 x1 y = ∑ k : Fin 128, x0 (ix2 (n0 := 5000) (n1 := 128) (y 0) k) * x1 (ix2 (n0 := 128) (n1 := 8) k (y 1)) := by
  obtain ⟨r, j, rfl⟩ : ∃ (r : Fin 5000) (j : Fin 8), y = ix2 r j := ⟨y 0, y 1, eq_ix2 y⟩
  unfold k2_pay1
  refine (Cert.LibMatmul.plain_matmul_zero_apply none _ _ r j).trans ?_
  refine Finset.sum_congr rfl fun k _ => ?_
  show shapeCast S5000x128 x0 _ (ix2 (n0 := 5000) (n1 := 128) r k) * x1 (ix2 (n0 := 128) (n1 := 8) k j) = _
  rw [shapeCast_self]

/-- The printed index maps over the grid: the hidden-feature and output windows move down by one block per point, the
    weight window stays put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry by entry, the block product of the feature block and the weight block at point `t` is the whole product
    read at the block's place in the output. -/
theorem block_eq (x : S100000x128.Idx → EReal) (w : S128x8.Idx → EReal) (t : Fin cfg2.N) (j : S5000x8.Idx) :
    (∑ k : Fin 128, x (((cfg2.win 0).blk t).view.emb (ix2 (n0 := 5000) (n1 := 128) (j 0) k))
        * w (((cfg2.win 1).blk t).view.emb (ix2 (n0 := 128) (n1 := 8) k (j 1))))
      = prod x w (((cfg2.win 2).blk t).view.emb j) := by
  obtain ⟨e0, e1, e2, e3, e4, e5⟩ := idx_facts t
  unfold prod
  refine Finset.sum_congr rfl fun k _ => ?_
  have h0 : ((cfg2.win 0).blk t).view.emb (ix2 (n0 := 5000) (n1 := 128) (j 0) k)
      = ix2 (n0 := 100000) (n1 := 128) ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 (n0 := 128) (n1 := 8) k (j 1))
      = ix2 (n0 := 128) (n1 := 8) k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 8 + 1 * (j 1).val = win2_2.index t (1 : Fin 2) * 8 + 1 * (j 1).val; omega
  rw [h0, h1]

/-- What point `t` writes back is block `t` of the whole product of the arrays the region was entered with. -/
theorem flushed_eq (c : Dev nD) (t : Fin cfg2.N) :
    (dat2 V c).flushed 2 t = ((cfg2.win 2).blk t).view.read (Elt Ideal)
      (prod (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x8) hz]
  funext j
  show k2_pay1 (iblk2 V c 0 t) (iblk2 V c 1 t) j
    = prod (V c (Pipeline.arrRef spec2 0)) (V c (Pipeline.arrRef spec2 1)) (((cfg2.win 2).blk t).view.emb j)
  refine (pay_apply _ _ j).trans ?_
  exact block_eq (V c (Pipeline.arrRef spec2 0)) (V c (Pipeline.arrRef spec2 1)) t j

/-- An index of the output array is in point `t`'s block iff each coordinate is in the block's range on its axis. -/
theorem mem_blk (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v48).slice (win2_2.rect t)).set ↔ _
  rw [View.set_slice_whole, Rect.mem_set_unit]
  exact Iff.rfl

/-- Every index of the output array lies in the block of the point its row belongs to. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 8 ≤ (i 1).val ∧ (i 1).val < win2_2.index t (1 : Fin 2) * 8 + 8; omega

/-- The output array after the region is the whole product of the feature and weight arrays the region was entered with. -/
theorem final (c : Dev nD) : (dat2 V c).arrAt 2 cfg2.N
    = prod (V c (Pipeline.arrRef spec2 0)) (V c (Pipeline.arrRef spec2 1)) :=
  (dat2 V c).arrAt_eq_of_cover 2 _ (fun t _ => flushed_eq V c t) cover

end Cert.KernelIdeal.Product2

end
-- ==== Proof.BiasRelu.lean ====
/-
  The bias and the cut-off at zero, block by block.

  The second region adds the first bias to every row of the aggregated features and takes the maximum with zero, 5000
  rows at a time: at grid point t it reads rows 5000·t … 5000·t + 4999 of the aggregated array and the whole one-row
  bias, and writes max(a[5000·t + r, j] + b[0, j], 0) back over the same rows of its output.  The operation is
  entry by entry, the blocks tile the output, so the output array ends as that function of the two arrays the region
  was entered with.
-/
import proofs.«140870_j15333033247254_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Every row of `a` plus the one row of `b`, cut off below at zero. -/
def biasRelu (a : S100000x128.Idx → EReal) (b : S1x128.Idx → EReal) : S100000x128.Idx → EReal :=
  fun i => max (a i + b (ix2 (n0 := 1) (n1 := 128) (0 : Fin 1) (i 1))) (Ideal.ofBits .f32 0x00000000#32)

theorem hz : (![0, 0] : Fin 2 → Nat) = fun _ => 0 := funext fun a => by fin_cases a <;> rfl

/-- The body's block at an entry: the aggregated entry plus the bias of its column, cut off at zero. -/
theorem pay_apply (x0 : Vec Ideal S5000x128 .f32) (x1 : Vec Ideal S1x128 .f32) (y : S5000x128.Idx) :
    k1_pay1 x0 x1 y = max (x0 y + x1 (ix2 (n0 := 1) (n1 := 128) (0 : Fin 1) (y 1))) (Ideal.ofBits .f32 0x00000000#32) := by
  obtain ⟨r, j, rfl⟩ : ∃ (r : Fin 5000) (j : Fin 128), y = ix2 r j := ⟨y 0, y 1, eq_ix2 y⟩
  unfold k1_pay1
  show max (shapeCast S5000x128 x0 _ (ix2 (n0 := 5000) (n1 := 128) r j)
      + broadcastTo S5000x128 (shapeCast S1x128 x1 _) _ (ix2 (n0 := 5000) (n1 := 128) r j)) (Ideal.ofBits .f32 0x00000000#32) = _
  rw [shapeCast_self, broadcastTo_1b_ab_apply, shapeCast_self]

/-- The printed index maps over the grid: the aggregated and output windows move down by one block per point, the
    bias window stays put. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry by entry, the body's function of the two blocks at point `t` is the whole function read at the block's place
    in the output. -/
theorem block_eq (a : S100000x128.Idx → EReal) (b : S1x128.Idx → EReal) (t : Fin cfg1.N) (j : S5000x128.Idx) :
    max (a (((cfg1.win 0).blk t).view.emb j) + b (((cfg1.win 1).blk t).view.emb (ix2 (n0 := 1) (n1 := 128) (0 : Fin 1) (j 1))))
        (Ideal.ofBits .f32 0x00000000#32)
      = biasRelu a b (((cfg1.win 2).blk t).view.emb j) := by
  obtain ⟨e0, e1, e2, e3, e4, e5⟩ := idx_facts t
  unfold biasRelu
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (n0 := 1) (n1 := 128) (0 : Fin 1) (j 1))
      = ix2 (n0 := 1) (n1 := 128) (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- What point `t` writes back is block `t` of the whole function of the arrays the region was entered with. -/
theorem flushed_eq (c : Dev nD) (t : Fin cfg1.N) :
    (dat1 V c).flushed 2 t = ((cfg1.win 2).blk t).view.read (Elt Ideal)
      (biasRelu (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  show k1_pay1 (iblk1 V c 0 t) (iblk1 V c 1 t) j
    = biasRelu (V c (Pipeline.arrRef spec1 0)) (V c (Pipeline.arrRef spec1 1)) (((cfg1.win 2).blk t).view.emb j)
  refine (pay_apply _ _ j).trans ?_
  exact block_eq (V c (Pipeline.arrRef spec1 0)) (V c (Pipeline.arrRef spec1 1)) t j

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index of the output array lies in the block of the point its row belongs to. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: every aggregated row plus the bias row, cut off at zero. -/
theorem final (c : Dev nD) : (dat1 V c).arrAt 2 cfg1.N
    = biasRelu (V c (Pipeline.arrRef spec1 0)) (V c (Pipeline.arrRef spec1 1)) :=
  (dat1 V c).arrAt_eq_of_cover 2 _ (fun t _ => flushed_eq V c t) cover

end Cert.KernelIdeal.BiasRelu

end
-- ==== Proof.BiasLogSoftmax.lean ====
/-
  The second bias and the log-softmax, block by block.

  The last region adds the second bias to every row of the aggregated logits and takes the log-softmax of every row,
  5000 rows at a time: at grid point t it reads rows 5000·t … 5000·t + 4999 of the aggregated array and the whole
  one-row bias.  A row of the result depends on that row of the input alone — its entries plus the bias, their maximum,
  and the sum of the exponentials of their differences from it — so block t of the result is block t of the
  whole-array function; the blocks tile the output.
-/
import proofs.«140870_j15333033247254_1_alg».proof.Proof.Gen.KernelIdeal.Frame
import proofs.«140870_j15333033247254_1_alg».proof.Proof.LibRowSoftmax
import Idealize.ShloMosaic.Lib.Pipeline.Value
import Idealize.ShloMosaic.Lib.ValueIdx
import Idealize.ShloMosaic.Lib.ValueLayout

set_option maxRecDepth 16384

noncomputable section

namespace Cert.KernelIdeal.BiasLogSoftmax

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The log-softmax of every row of `a` plus the one row of `b`, the maxima taken from minus infinity's pattern. -/
def biasLsm (a : S100000x8.Idx → EReal) (b : S1x8.Idx → EReal) : S100000x8.Idx → EReal :=
  fun i => Cert.LibRowSoftmax.lsm (n := 8) (Ideal.ofBits .f32 0xFF800000#32)
    (fun k => a (ix2 (n0 := 100000) (n1 := 8) (i 0) k) + b (ix2 (n0 := 1) (n1 := 8) (0 : Fin 1) k)) (i 1)

theorem hz : (![0, 0] : Fin 2 → Nat) = fun _ => 0 := funext fun a => by fin_cases a <;> rfl

/-- The body's block at an entry: the log-softmax of the entry's row of the block plus the bias row. -/
theorem pay_apply (x0 : Vec Ideal S5000x8 .f32) (x1 : Vec Ideal S1x8 .f32) (y : S5000x8.Idx) :
    k3_pay1 x0 x1 y = Cert.LibRowSoftmax.lsm (n := 8) (Ideal.ofBits .f32 0xFF800000#32)
      (fun k => x0 (ix2 (n0 := 5000) (n1 := 8) (y 0) k) + x1 (ix2 (n0 := 1) (n1 := 8) (0 : Fin 1) k)) (y 1) := by
  obtain ⟨r, j, rfl⟩ : ∃ (r : Fin 5000) (j : Fin 8), y = ix2 r j := ⟨y 0, y 1, eq_ix2 y⟩
  unfold k3_pay1
  refine (Cert.LibRowSoftmax.kernel_apply (a := 5000) (b := 8)
    (addf (shapeCast S5000x8 x0 _) (broadcastTo S5000x8 (shapeCast S1x8 x1 _) _)) 0xFF800000#32 0x00000000#32 _ (.inl rfl) rfl rfl _ _ r j).trans ?_
  refine congrArg (fun z : Fin 8 → EReal => Cert.LibRowSoftmax.lsm (n := 8) (Ideal.ofBits .f32 0xFF800000#32) z j) (funext fun k => ?_)
  show shapeCast S5000x8 x0 _ (ix2 (n0 := 5000) (n1 := 8) r k) + broadcastTo S5000x8 (shapeCast S1x8 x1 _) _ (ix2 (n0 := 5000) (n1 := 8) r k) = _
  rw [shapeCast_self, broadcastTo_1b_ab_apply, shapeCast_self]

/-- The printed index maps over the grid: the aggregated and output windows move down by one block per point, the
    bias window stays put. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry by entry, the body's function of the two blocks at point `t` is the whole function read at the block's place
    in the output. -/
theorem block_eq (a : S100000x8.Idx → EReal) (b : S1x8.Idx → EReal) (t : Fin cfg3.N) (j : S5000x8.Idx) :
    Cert.LibRowSoftmax.lsm (n := 8) (Ideal.ofBits .f32 0xFF800000#32)
        (fun k => a (((cfg3.win 0).blk t).view.emb (ix2 (n0 := 5000) (n1 := 8) (j 0) k))
          + b (((cfg3.win 1).blk t).view.emb (ix2 (n0 := 1) (n1 := 8) (0 : Fin 1) k))) (j 1)
      = biasLsm a b (((cfg3.win 2).blk t).view.emb j) := by
  obtain ⟨e0, e1, e2, e3, e4, e5⟩ := idx_facts t
  unfold biasLsm
  have h0 : ∀ k : Fin 8, ((cfg3.win 0).blk t).view.emb (ix2 (n0 := 5000) (n1 := 8) (j 0) k)
      = ix2 (n0 := 100000) (n1 := 8) ((((cfg3.win 2).blk t).view.emb j) 0) k := fun k => by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 8 + 1 * k.val = k.val; omega
  have h1 : ∀ k : Fin 8, ((cfg3.win 1).blk t).view.emb (ix2 (n0 := 1) (n1 := 8) (0 : Fin 1) k)
      = ix2 (n0 := 1) (n1 := 8) (0 : Fin 1) k := fun k => by
    funext a; apply Fin.ext
    match a with
    | ⟨0, _⟩ => show win3_1.index t (0 : Fin 2) * 1 + 1 * 0 = 0; omega
    | ⟨1, _⟩ => show win3_1.index t (1 : Fin 2) * 8 + 1 * k.val = k.val; omega
  have h2 : (j 1 : Fin 8) = (((cfg3.win 2).blk t).view.emb j) 1 := by
    apply Fin.ext
    show (j 1).val = win3_2.index t (1 : Fin 2) * 8 + 1 * (j 1).val
    omega
  simp only [h0, h1]
  rw [h2]

/-- What point `t` writes back is block `t` of the whole function of the arrays the region was entered with. -/
theorem flushed_eq (c : Dev nD) (t : Fin cfg3.N) :
    (dat3 V c).flushed 2 t = ((cfg3.win 2).blk t).view.read (Elt Ideal)
      (biasLsm (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x8) hz, View.ld_unit_zero (S := S1x8) hz]
  funext j
  show k3_pay1 (iblk3 V c 0 t) (iblk3 V c 1 t) j
    = biasLsm (V c (Pipeline.arrRef spec3 0)) (V c (Pipeline.arrRef spec3 1)) (((cfg3.win 2).blk t).view.emb j)
  refine (pay_apply _ _ j).trans ?_
  exact block_eq (V c (Pipeline.arrRef spec3 0)) (V c (Pipeline.arrRef spec3 1)) t j

/-- An index of the output array is in point `t`'s block iff each coordinate is in the block's range on its axis. -/
theorem mem_blk (t : Fin cfg3.N) (i : S100000x8.Idx) :
    i ∈ ((cfg3.win 2).blk t).view.set ↔ ∀ a : Fin 2, win3_2.index t a * S5000x8.size a ≤ (i a).val ∧ (i a).val < win3_2.index t a * S5000x8.size a + S5000x8.size a := by
  show i ∈ ((View.whole main_v63).slice (win3_2.rect t)).set ↔ _
  rw [View.set_slice_whole, Rect.mem_set_unit]
  exact Iff.rfl

/-- Every index of the output array lies in the block of the point its row belongs to. -/
theorem cover (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 20 := N_3
  let t : Fin cfg3.N := ⟨(i 0).val / 5000, by rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 8 ≤ (i 1).val ∧ (i 1).val < win3_2.index t (1 : Fin 2) * 8 + 8; omega

/-- The output array after the region: the log-softmax of every aggregated row plus the bias row. -/
theorem final (c : Dev nD) : (dat3 V c).arrAt 2 cfg3.N
    = biasLsm (V c (Pipeline.arrRef spec3 0)) (V c (Pipeline.arrRef spec3 1)) :=
  (dat3 V c).arrAt_eq_of_cover 2 _ (fun t _ => flushed_eq V c t) cover

end Cert.KernelIdeal.BiasLogSoftmax

end
-- ==== Proof.Chain.lean ====
/-
  The kernel program's result, boundary by boundary.

  The kernel program alternates stretches of host operations with four pipelined regions.  Followed from the launch:
  the graph's construction leaves the sources, destinations and edge weights; the first region leaves the product of
  the features by the first weight matrix; the next stretch aggregates it over the graph with the reference's own
  operations and reshapes the first bias to one row; the second region adds the bias and cuts off at zero; the third
  leaves the product of those hidden features by the second weight matrix; the next stretch aggregates it and reshapes
  the second bias; the last region adds the bias and takes the log-softmax of every row.  At each boundary the buffer
  just written holds the corresponding stage of the staged description, and the buffers not written are carried
  along; at the last boundary the result buffer holds `Spec.out` of the launch contents of the arguments.
-/
import proofs.«140870_j15333033247254_1_alg».proof.Proof.Gen.KernelIdeal.Frame
import proofs.«140870_j15333033247254_1_alg».proof.Proof.Spec
import proofs.«140870_j15333033247254_1_alg».proof.Proof.SpecRead
import proofs.«140870_j15333033247254_1_alg».proof.Proof.Graph
import proofs.«140870_j15333033247254_1_alg».proof.Proof.Product1
import proofs.«140870_j15333033247254_1_alg».proof.Proof.Product2
import proofs.«140870_j15333033247254_1_alg».proof.Proof.BiasRelu
import proofs.«140870_j15333033247254_1_alg».proof.Proof.BiasLogSoftmax
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.Spec Cert.KernelIdeal.Graph

/-- A buffer none of the listed operations writes keeps its contents: each operation's written buffer is another. -/
local macro "keeps" : tactic =>
  `(tactic| exact StableHlo.after_of_forall_not_mem _ _ (List.forall_iff_forall_mem.mp (by
      simp only [List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The two later stretches of host operations, from any contents -/

section Stretches
variable (V : Valuation τ sig (Elt Ideal))

set_option maxHeartbeats 4000000 in
/-- The stretch after the first region aggregates the product it finds over the graph arrays it finds. -/
theorem stretch1_agg : after hostOps1 V (Proc.devRef .tc main_v45)
    = aggr128 (V (Proc.devRef .tc main_v3)) (V (Proc.devRef .tc main_v6)) (V (Proc.devRef .tc main_v31)) (V (Proc.devRef .tc main_v32)) := by
  after_results_simp
  rfl

set_option maxHeartbeats 4000000 in
/-- … and reshapes the first bias vector to one row. -/
theorem stretch1_bias (k : Fin 128) : (after hostOps1 V (Proc.devRef .tc main_v46) : S1x128.Idx → EReal) (ix2 (0 : Fin 1) k)
    = (V (Proc.devRef .tc main_arg3) : S128.Idx → EReal) (ix1 k) := by
  after_results_simp
  exact shapeCast_a_1a_apply (a := 128) _ _ (0 : Fin 1) k

theorem stretch1_v3 : after hostOps1 V (Proc.devRef .tc main_v3) = V (Proc.devRef .tc main_v3) := by keeps
theorem stretch1_v6 : after hostOps1 V (Proc.devRef .tc main_v6) = V (Proc.devRef .tc main_v6) := by keeps
theorem stretch1_v31 : after hostOps1 V (Proc.devRef .tc main_v31) = V (Proc.devRef .tc main_v31) := by keeps
theorem stretch1_arg4 : after hostOps1 V (Proc.devRef .tc main_arg4) = V (Proc.devRef .tc main_arg4) := by keeps
theorem stretch1_arg5 : after hostOps1 V (Proc.devRef .tc main_arg5) = V (Proc.devRef .tc main_arg5) := by keeps

set_option maxHeartbeats 4000000 in
/-- The stretch after the third region aggregates the product it finds over the graph arrays it finds. -/
theorem stretch3_agg : after hostOps3 V (Proc.devRef .tc main_v61)
    = aggr8 (V (Proc.devRef .tc main_v3)) (V (Proc.devRef .tc main_v6)) (V (Proc.devRef .tc main_v31)) (V (Proc.devRef .tc main_v48)) := by
  after_results_simp
  rfl

set_option maxHeartbeats 4000000 in
/-- … and reshapes the second bias vector to one row. -/
theorem stretch3_bias (k : Fin 8) : (after hostOps3 V (Proc.devRef .tc main_v62) : S1x8.Idx → EReal) (ix2 (0 : Fin 1) k)
    = (V (Proc.devRef .tc main_arg5) : S8.Idx → EReal) (ix1 k) := by
  after_results_simp
  exact shapeCast_a_1a_apply (a := 8) _ _ (0 : Fin 1) k

end Stretches

/-! ## The regions' whole-array functions are the reference's stages -/

/-- The first region's whole product is the reference's first product. -/
theorem prod1_eq (x : S100000x128.Idx → EReal) (w : S128x128.Idx → EReal)
    (X : FVec Ideal Cert.ReferenceIdeal.S100000x128 .f32) (W : FVec Ideal Cert.ReferenceIdeal.S128x128 .f32) (hx : x = X) (hw : w = W) :
    Cert.KernelIdeal.Product1.prod x w = mm1 X W := by
  subst hx hw
  funext i
  obtain ⟨r, j, rfl⟩ : ∃ (r : Fin 100000) (j : Fin 128), i = ix2 r j := ⟨i 0, i 1, eq_ix2 i⟩
  exact (mm1_apply x w r j).symm

/-- The third region's whole product is the reference's second product. -/
theorem prod2_eq (x : S100000x128.Idx → EReal) (w : S128x8.Idx → EReal)
    (X : FVec Ideal Cert.ReferenceIdeal.S100000x128 .f32) (W : FVec Ideal Cert.ReferenceIdeal.S128x8 .f32) (hx : x = X) (hw : w = W) :
    Cert.KernelIdeal.Product2.prod x w = mm2 X W := by
  subst hx hw
  funext i
  obtain ⟨r, j, rfl⟩ : ∃ (r : Fin 100000) (j : Fin 8), i = ix2 r j := ⟨i 0, i 1, eq_ix2 i⟩
  exact (mm2_apply x w r j).symm

/-- The second region's function of an array and a one-row bias is the reference's hidden features of that array and
    the bias vector the row was reshaped from. -/
theorem biasRelu_eq (a : S100000x128.Idx → EReal) (b1 : S1x128.Idx → EReal)
    (A : FVec Ideal Cert.ReferenceIdeal.S100000x128 .f32) (b : FVec Ideal Cert.ReferenceIdeal.S128 .f32) (ha : a = A)
    (hb : ∀ k : Fin 128, b1 (ix2 (0 : Fin 1) k) = b (ix1 k)) :
    Cert.KernelIdeal.BiasRelu.biasRelu a b1 = hidden A b := by
  subst ha
  funext i
  obtain ⟨r, j, rfl⟩ : ∃ (r : Fin 100000) (j : Fin 128), i = ix2 r j := ⟨i 0, i 1, eq_ix2 i⟩
  rw [hidden_apply]
  show max (a (ix2 r j) + b1 (ix2 (0 : Fin 1) j)) _ = _
  rw [hb]

/-- The last region's function of an array and a one-row bias is the reference's log-softmax of the logits of that
    array and the bias vector the row was reshaped from. -/
theorem biasLsm_eq (a : S100000x8.Idx → EReal) (b1 : S1x8.Idx → EReal)
    (A : FVec Ideal Cert.ReferenceIdeal.S100000x8 .f32) (b : FVec Ideal Cert.ReferenceIdeal.S8 .f32) (ha : a = A)
    (hb : ∀ k : Fin 8, b1 (ix2 (0 : Fin 1) k) = b (ix1 k)) :
    Cert.KernelIdeal.BiasLogSoftmax.biasLsm a b1 = logSoftmax (logits A b) := by
  subst ha
  funext i
  obtain ⟨r, j, rfl⟩ : ∃ (r : Fin 100000) (j : Fin 8), i = ix2 r j := ⟨i 0, i 1, eq_ix2 i⟩
  rw [logSoftmax_apply]
  show Cert.LibRowSoftmax.lsm (n := 8) _ (fun k => a (ix2 r k) + b1 (ix2 (0 : Fin 1) k)) j = _
  refine congrArg (fun z : Fin 8 → EReal => Cert.LibRowSoftmax.lsm (n := 8) (Ideal.ofBits .f32 0xFF800000#32) z j) (funext fun k => ?_)
  rw [logits_apply, hb]

/-! ## The arguments at the first region's entry -/

section Prelude
variable (V : Valuation τ sig (Elt Ideal))
set_option maxHeartbeats 4000000 in
theorem pre_arg0 : after hostOps0_2 (after hostOps0_1 (after hostOps0 V)) (Proc.devRef .tc main_arg0) = V (Proc.devRef .tc main_arg0) := by
  after_results_simp
set_option maxHeartbeats 4000000 in
theorem pre_arg2 : after hostOps0_2 (after hostOps0_1 (after hostOps0 V)) (Proc.devRef .tc main_arg2) = V (Proc.devRef .tc main_arg2) := by
  after_results_simp
set_option maxHeartbeats 4000000 in
theorem pre_arg3 : after hostOps0_2 (after hostOps0_1 (after hostOps0 V)) (Proc.devRef .tc main_arg3) = V (Proc.devRef .tc main_arg3) := by
  after_results_simp
set_option maxHeartbeats 4000000 in
theorem pre_arg4 : after hostOps0_2 (after hostOps0_1 (after hostOps0 V)) (Proc.devRef .tc main_arg4) = V (Proc.devRef .tc main_arg4) := by
  after_results_simp
set_option maxHeartbeats 4000000 in
theorem pre_arg5 : after hostOps0_2 (after hostOps0_1 (after hostOps0 V)) (Proc.devRef .tc main_arg5) = V (Proc.devRef .tc main_arg5) := by
  after_results_simp
end Prelude

variable (m : (ℓ : Loc nD τ sig) → Buf (Elt Ideal) ℓ) (ρ : Dev nD → PrngReg)

theorem W3_arg0 (c : Dev nD) : W3 m ρ c (Proc.devRef .tc main_arg0) = m ((c : Thread nD τ).loc main_arg0) := pre_arg0 (W0 m ρ c)
theorem W3_arg2 (c : Dev nD) : W3 m ρ c (Proc.devRef .tc main_arg2) = m ((c : Thread nD τ).loc main_arg2) := pre_arg2 (W0 m ρ c)
theorem W3_arg3 (c : Dev nD) : W3 m ρ c (Proc.devRef .tc main_arg3) = m ((c : Thread nD τ).loc main_arg3) := pre_arg3 (W0 m ρ c)
theorem W3_arg4 (c : Dev nD) : W3 m ρ c (Proc.devRef .tc main_arg4) = m ((c : Thread nD τ).loc main_arg4) := pre_arg4 (W0 m ρ c)
theorem W3_arg5 (c : Dev nD) : W3 m ρ c (Proc.devRef .tc main_arg5) = m ((c : Thread nD τ).loc main_arg5) := pre_arg5 (W0 m ρ c)

/-! ## After the first region -/

theorem W4_v32 (c : Dev nD) : W4 m ρ c (Proc.devRef .tc main_v32)
    = mm1 (m ((c : Thread nD τ).loc main_arg0)) (m ((c : Thread nD τ).loc main_arg2)) :=
  (W4_arr m ρ c 2).trans ((Cert.KernelIdeal.Product1.final (V3 m ρ) c).trans
    (prod1_eq _ _ _ _ (W3_arg0 m ρ c) (W3_arg2 m ρ c)))
theorem W4_src (c : Dev nD) : W4 m ρ c (Proc.devRef .tc main_v3) = src (edges m c) :=
  (W4_of_ne m ρ c main_v3 (by decide)).trans (W3_src m ρ c)
theorem W4_dst (c : Dev nD) : W4 m ρ c (Proc.devRef .tc main_v6) = dst (edges m c) :=
  (W4_of_ne m ρ c main_v6 (by decide)).trans (W3_dst m ρ c)
theorem W4_norm (c : Dev nD) : W4 m ρ c (Proc.devRef .tc main_v31) = norm (edges m c) :=
  (W4_of_ne m ρ c main_v31 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## After the stretch between the first two regions -/

theorem W5_v45 (c : Dev nD) : W5 m ρ c (Proc.devRef .tc main_v45)
    = agg128 (edges m c) (mm1 (m ((c : Thread nD τ).loc main_arg0)) (m ((c : Thread nD τ).loc main_arg2))) := by
  refine (stretch1_agg (W4 m ρ c)).trans ?_
  rw [W4_v32, W4_src, W4_dst, W4_norm]
  rfl
theorem W5_v46 (c : Dev nD) (k : Fin 128) : (W5 m ρ c (Proc.devRef .tc main_v46) : S1x128.Idx → EReal) (ix2 (0 : Fin 1) k)
    = (m ((c : Thread nD τ).loc main_arg3) : S128.Idx → EReal) (ix1 k) :=
  (stretch1_bias (W4 m ρ c) k).trans (congrFun (W4_arg3 m ρ c) (ix1 k))
theorem W5_src (c : Dev nD) : W5 m ρ c (Proc.devRef .tc main_v3) = src (edges m c) := (stretch1_v3 (W4 m ρ c)).trans (W4_src m ρ c)
theorem W5_dst (c : Dev nD) : W5 m ρ c (Proc.devRef .tc main_v6) = dst (edges m c) := (stretch1_v6 (W4 m ρ c)).trans (W4_dst m ρ c)
theorem W5_norm (c : Dev nD) : W5 m ρ c (Proc.devRef .tc main_v31) = norm (edges m c) := (stretch1_v31 (W4 m ρ c)).trans (W4_norm m ρ c)
theorem W5_arg4 (c : Dev nD) : W5 m ρ c (Proc.devRef .tc main_arg4) = m ((c : Thread nD τ).loc main_arg4) :=
  (stretch1_arg4 (W4 m ρ c)).trans (W4_arg4 m ρ c)
theorem W5_arg5 (c : Dev nD) : W5 m ρ c (Proc.devRef .tc main_arg5) = m ((c : Thread nD τ).loc main_arg5) :=
  (stretch1_arg5 (W4 m ρ c)).trans (W4_arg5 m ρ c)

/-! ## After the second region -/

/-- The hidden features, as the staged description has them. -/
abbrev hid (c : Dev nD) : FVec Ideal Cert.ReferenceIdeal.S100000x128 .f32 :=
  hidden (agg128 (edges m c) (mm1 (m ((c : Thread nD τ).loc main_arg0)) (m ((c : Thread nD τ).loc main_arg2)))) (m ((c : Thread nD τ).loc main_arg3))

theorem W6_v47 (c : Dev nD) : W6 m ρ c (Proc.devRef .tc main_v47) = hid m c :=
  (W6_arr m ρ c 2).trans ((Cert.KernelIdeal.BiasRelu.final (V5 m ρ) c).trans
    (biasRelu_eq _ _ _ _ (W5_v45 m ρ c) (W5_v46 m ρ c)))
theorem W6_src (c : Dev nD) : W6 m ρ c (Proc.devRef .tc main_v3) = src (edges m c) :=
  (W6_of_ne m ρ c main_v3 (by decide)).trans (W5_src m ρ c)
theorem W6_dst (c : Dev nD) : W6 m ρ c (Proc.devRef .tc main_v6) = dst (edges m c) :=
  (W6_of_ne m ρ c main_v6 (by decide)).trans (W5_dst m ρ c)
theorem W6_norm (c : Dev nD) : W6 m ρ c (Proc.devRef .tc main_v31) = norm (edges m c) :=
  (W6_of_ne m ρ c main_v31 (by decide)).trans (W5_norm m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## After the third region -/

theorem W7_v48 (c : Dev nD) : W7 m ρ c (Proc.devRef .tc main_v48) = mm2 (hid m c) (m ((c : Thread nD τ).loc main_arg4)) :=
  (W7_arr m ρ c 2).trans ((Cert.KernelIdeal.Product2.final (V6 m ρ) c).trans
    (prod2_eq _ _ _ _ (W6_v47 m ρ c) (W6_arg4 m ρ c)))
theorem W7_src (c : Dev nD) : W7 m ρ c (Proc.devRef .tc main_v3) = src (edges m c) :=
  (W7_of_ne m ρ c main_v3 (by decide)).trans (W6_src m ρ c)
theorem W7_dst (c : Dev nD) : W7 m ρ c (Proc.devRef .tc main_v6) = dst (edges m c) :=
  (W7_of_ne m ρ c main_v6 (by decide)).trans (W6_dst m ρ c)
theorem W7_norm (c : Dev nD) : W7 m ρ c (Proc.devRef .tc main_v31) = norm (edges m c) :=
  (W7_of_ne m ρ c main_v31 (by decide)).trans (W6_norm m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## After the stretch before the last region -/

theorem W8_v61 (c : Dev nD) : W8 m ρ c (Proc.devRef .tc main_v61)
    = agg8 (edges m c) (mm2 (hid m c) (m ((c : Thread nD τ).loc main_arg4))) := by
  refine (stretch3_agg (W7 m ρ c)).trans ?_
  rw [W7_v48, W7_src, W7_dst, W7_norm]
  rfl
theorem W8_v62 (c : Dev nD) (k : Fin 8) : (W8 m ρ c (Proc.devRef .tc main_v62) : S1x8.Idx → EReal) (ix2 (0 : Fin 1) k)
    = (m ((c : Thread nD τ).loc main_arg5) : S8.Idx → EReal) (ix1 k) :=
  (stretch3_bias (W7 m ρ c) k).trans (congrFun (W7_arg5 m ρ c) (ix1 k))

/-! ## After the last region: the result -/

/-- The result buffer at the last boundary holds the staged description of the arguments' launch contents. -/
theorem W9_result (c : Dev nD) : W9 m ρ c (Proc.devRef .tc main_v63)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W9_arr m ρ c 2).trans ((Cert.KernelIdeal.BiasLogSoftmax.final (V8 m ρ) c).trans
    (biasLsm_eq _ _ _ _ (W8_v61 m ρ c) (W8_v62 m ρ c)))

end Cert.KernelIdeal.Chain

end
-- ==== Proof.RefRun.lean ====
/-
  The reference program's run.

  The reference is a straight line of host operations.  Every weakly fair execution of it terminates with every buffer
  holding what the operations, applied in order to the launch contents, leave there.  Read stretch by stretch — the
  graph's construction in three, each layer up to its bias, the cut-off at zero, the log-softmax — each stretch's
  result buffer is the stage of the staged description applied to what the stretch found in the buffers it reads, and
  the buffers a stretch does not write come through it unchanged; chained, the result buffer holds `Spec.out` of the
  launch contents of the arguments, and the arguments end as launched.
-/
import proofs.«140870_j15333033247254_1_alg».proof.Proof.Gen.ReferenceIdeal
import proofs.«140870_j15333033247254_1_alg».proof.Proof.Spec
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The graph, first stretch: sources, destinations, the degree's positivity mask and inverse square root. -/
abbrev opsG0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- The graph, second stretch: the choice between the inverse square root and zero by the mask (a called function's operations). -/
abbrev opsG1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The graph, third stretch: the edge weights. -/
abbrev opsG2 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first layer up to the bias: product, aggregation, bias. -/
abbrev opsL1a : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The cut-off at zero (a called function's operations). -/
abbrev opsL1b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- The second layer up to the bias: product, aggregation, bias. -/
abbrev opsL2a : List (HloOp τ sig (Elt F)) :=
  [ binary main_v49 main_arg4 main_v50 ((fun l r => Host.dotGeneral dot_S100000x128_S128x8_S100000x8_1_0_0_1_n_n none l r) : (⟨S100000x128, .f32⟩ : BufTy).Contents (Elt F) → (⟨S128x8, .f32⟩ : BufTy).Contents (Elt F) → (⟨S100000x8, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x8_S1700000x1_S1700000x8_1_0_n_n_0_1_18 x i) : (⟨S100000x8, .f32⟩ : BufTy).Contents (Elt F) → (⟨S1700000x1, .i32⟩ : BufTy).Contents (Elt F) → (⟨S1700000x8, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x8 ![0, 1] bcast_S1700000x1_S1700000x8_0_1 : (⟨S1700000x1, .f32⟩ : BufTy).Contents (Elt F) → (⟨S1700000x8, .f32⟩ : BufTy).Contents (Elt F)),
    binary main_v57 main_v59 main_v60 (mulf : (⟨S1700000x8, .f32⟩ : BufTy).Contents (Elt F) → (⟨S1700000x8, .f32⟩ : BufTy).Contents (Elt F) → (⟨S1700000x8, .f32⟩ : BufTy).Contents (Elt F)),
    nullary main_cst_12 (constant S_ .f32 0x00000000#32),
    unary main_cst_12 main_v61 (broadcastInDim S100000x8 ![] bcast_S_S100000x8 : (⟨S_, .f32⟩ : BufTy).Contents (Elt F) → (⟨S100000x8, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x8_S1700000x1_S1700000x8_1_0_0_1 x i u) : (⟨S100000x8, .f32⟩ : BufTy).Contents (Elt F) → (⟨S1700000x1, .i32⟩ : BufTy).Contents (Elt F) → (⟨S1700000x8, .f32⟩ : BufTy).Contents (Elt F) → (⟨S100000x8, .f32⟩ : BufTy).Contents (Elt F)),
    unary main_arg5 main_v64 (broadcastInDim S1x8 ![1] bcast_S8_S1x8_1 : (⟨S8, .f32⟩ : BufTy).Contents (Elt F) → (⟨S1x8, .f32⟩ : BufTy).Contents (Elt F)),
    unary main_v64 main_v65 (broadcastInDim S100000x8 ![0, 1] bcast_S1x8_S100000x8_0_1 : (⟨S1x8, .f32⟩ : BufTy).Contents (Elt F) → (⟨S100000x8, .f32⟩ : BufTy).Contents (Elt F)),
    binary main_v63 main_v65 main_v66 (addf : (⟨S100000x8, .f32⟩ : BufTy).Contents (Elt F) → (⟨S100000x8, .f32⟩ : BufTy).Contents (Elt F) → (⟨S100000x8, .f32⟩ : BufTy).Contents (Elt F)) ]

/-- The log-softmax as the program calls it: a called function's operations, each reading and writing its buffers at the
    value's own type. -/
abbrev opsLSCalled : List (HloOp τ sig (Elt F)) :=
  [ TRef.nullary (TRef.of (T := ⟨S_, .f32⟩) main_call2_cst) (constant S_ .f32 0xFF800000#32),
    TRef.binary (TRef.of (T := ⟨S100000x8, .f32⟩) main_v66) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v66) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v67) subf ]

/-- The log-softmax, first stretch, at the buffers themselves: every row's maximum. -/
abbrev opsLA : List (HloOp τ sig (Elt F)) :=
  [ nullary main_call2_cst ((constant S_ .f32 0xFF800000#32) : (⟨S_, .f32⟩ : BufTy).Contents (Elt F)),
    binary main_v66 main_call2_cst main_call2_v0 ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)) ]

/-- The log-softmax, second stretch: every row minus its maximum. -/
abbrev opsLB : List (HloOp τ sig (Elt F)) :=
  [ unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x8 ![0, 1] bcast_S100000x1_S100000x8_0_1) : (⟨S100000x1, .f32⟩ : BufTy).Contents (Elt F) → (⟨S100000x8, .f32⟩ : BufTy).Contents (Elt F)),
    binary main_v66 main_call2_v4 main_call2_v5 ((subf) : (⟨S100000x8, .f32⟩ : BufTy).Contents (Elt F) → (⟨S100000x8, .f32⟩ : BufTy).Contents (Elt F) → (⟨S100000x8, .f32⟩ : BufTy).Contents (Elt F)) ]

/-- The log-softmax, third stretch: every row's sum of exponentials, as a column. -/
abbrev opsLC : List (HloOp τ sig (Elt F)) :=
  [ unary main_call2_v5 main_call2_v6 ((Host.exp) : (⟨S100000x8, .f32⟩ : BufTy).Contents (Elt F) → (⟨S100000x8, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)) ]

/-- The log-softmax, last stretch: the shifted rows minus the logarithm of that column. -/
abbrev opsLD : List (HloOp τ sig (Elt F)) :=
  [ unary main_call2_v8 main_call2_v9 ((Host.log) : (⟨S100000x1, .f32⟩ : BufTy).Contents (Elt F) → (⟨S100000x1, .f32⟩ : BufTy).Contents (Elt F)),
    unary main_call2_v9 main_call2_v10 ((broadcastInDim S100000x8 ![0, 1] bcast_S100000x1_S100000x8_0_1) : (⟨S100000x1, .f32⟩ : BufTy).Contents (Elt F) → (⟨S100000x8, .f32⟩ : BufTy).Contents (Elt F)),
    binary main_call2_v5 main_call2_v10 main_v67 ((subf) : (⟨S100000x8, .f32⟩ : BufTy).Contents (Elt F) → (⟨S100000x8, .f32⟩ : BufTy).Contents (Elt F) → (⟨S100000x8, .f32⟩ : BufTy).Contents (Elt F)) ]

/-- The program's operations as it spells them, in order. -/
abbrev opsCalled : List (HloOp τ sig (Elt F)) := opsG0 ++ (opsG1 ++ (opsG2 ++ (opsL1a ++ (opsL1b ++ (opsL2a ++ opsLSCalled)))))

/-- The program's operations with the log-softmax's written at the buffers themselves. -/
abbrev ops : List (HloOp τ sig (Elt F)) := opsG0 ++ (opsG1 ++ (opsG2 ++ (opsL1a ++ (opsL1b ++ (opsL2a ++ (opsLA ++ (opsLB ++ (opsLC ++ opsLD))))))))

set_option maxRecDepth 65536 in
set_option maxHeartbeats 4000000 in
theorem main_called (c : Dev nD) : main (F := F) c = seq opsCalled := rfl

/-! ## A called function's operation is the operation at the buffers themselves

    For the literal buffers of the log-softmax the value's type and the buffer's are the same type, so the transport
    between them is the identity, whatever the operation's function is. -/

theorem lsOp0 (v : (⟨S_, .f32⟩ : BufTy).Contents (Elt F)) : (TRef.nullary (TRef.of (T := ⟨S_, .f32⟩) main_call2_cst) v : HloOp τ sig (Elt F)) = nullary main_call2_cst v := rfl
theorem lsOp1 (f : (⟨S100000x8, .f32⟩ : BufTy).Contents (Elt F) → (⟨S_, .f32⟩ : BufTy).Contents (Elt F) → (⟨S100000, .f32⟩ : BufTy).Contents (Elt F)) : (TRef.binary (TRef.of (T := ⟨S100000x8, .f32⟩) main_v66) (TRef.of (T := ⟨S_, .f32⟩) main_call2_cst) (TRef.of (T := ⟨S100000, .f32⟩) main_call2_v0) f : HloOp τ sig (Elt F)) = binary main_v66 main_call2_cst main_call2_v0 f := rfl
theorem lsOp2 (v : (⟨S_, .f32⟩ : BufTy).Contents (Elt F)) : (TRef.nullary (TRef.of (T := ⟨S_, .f32⟩) main_call2_cst_0) v : HloOp τ sig (Elt F)) = nullary main_call2_cst_0 v := rfl
theorem lsOp3 (f : (⟨S_, .f32⟩ : BufTy).Contents (Elt F) → (⟨S100000, .f32⟩ : BufTy).Contents (Elt F)) : (TRef.unary (TRef.of (T := ⟨S_, .f32⟩) main_call2_cst_0) (TRef.of (T := ⟨S100000, .f32⟩) main_call2_v1) f : HloOp τ sig (Elt F)) = unary main_call2_cst_0 main_call2_v1 f := rfl
theorem lsOp4 (f : (⟨S100000, .f32⟩ : BufTy).Contents (Elt F) → (⟨S100000, .f32⟩ : BufTy).Contents (Elt F) → (⟨S100000, .f32⟩ : BufTy).Contents (Elt F)) : (TRef.binary (TRef.of (T := ⟨S100000, .f32⟩) main_call2_v1) (TRef.of (T := ⟨S100000, .f32⟩) main_call2_v0) (TRef.of (T := ⟨S100000, .f32⟩) main_call2_v2) f : HloOp τ sig (Elt F)) = binary main_call2_v1 main_call2_v0 main_call2_v2 f := rfl
theorem lsOp5 (f : (⟨S100000, .f32⟩ : BufTy).Contents (Elt F) → (⟨S100000x1, .f32⟩ : BufTy).Contents (Elt F)) : (TRef.unary (TRef.of (T := ⟨S100000, .f32⟩) main_call2_v2) (TRef.of (T := ⟨S100000x1, .f32⟩) main_call2_v3) f : HloOp τ sig (Elt F)) = unary main_call2_v2 main_call2_v3 f := rfl
theorem lsOp6 (f : (⟨S100000x1, .f32⟩ : BufTy).Contents (Elt F) → (⟨S100000x8, .f32⟩ : BufTy).Contents (Elt F)) : (TRef.unary (TRef.of (T := ⟨S100000x1, .f32⟩) main_call2_v3) (TRef.of (T := ⟨S100000x8, .f32⟩) main_call2_v4) f : HloOp τ sig (Elt F)) = unary main_call2_v3 main_call2_v4 f := rfl
theorem lsOp7 (f : (⟨S100000x8, .f32⟩ : BufTy).Contents (Elt F) → (⟨S100000x8, .f32⟩ : BufTy).Contents (Elt F) → (⟨S100000x8, .f32⟩ : BufTy).Contents (Elt F)) : (TRef.binary (TRef.of (T := ⟨S100000x8, .f32⟩) main_v66) (TRef.of (T := ⟨S100000x8, .f32⟩) main_call2_v4) (TRef.of (T := ⟨S100000x8, .f32⟩) main_call2_v5) f : HloOp τ sig (Elt F)) = binary main_v66 main_call2_v4 main_call2_v5 f := rfl
theorem lsOp8 (f : (⟨S100000x8, .f32⟩ : BufTy).Contents (Elt F) → (⟨S100000x8, .f32⟩ : BufTy).Contents (Elt F)) : (TRef.unary (TRef.of (T := ⟨S100000x8, .f32⟩) main_call2_v5) (TRef.of (T := ⟨S100000x8, .f32⟩) main_call2_v6) f : HloOp τ sig (Elt F)) = unary main_call2_v5 main_call2_v6 f := rfl
theorem lsOp9 (v : (⟨S_, .f32⟩ : BufTy).Contents (Elt F)) : (TRef.nullary (TRef.of (T := ⟨S_, .f32⟩) main_call2_cst_1) v : HloOp τ sig (Elt F)) = nullary main_call2_cst_1 v := rfl
theorem lsOp10 (f : (⟨S100000x8, .f32⟩ : BufTy).Contents (Elt F) → (⟨S_, .f32⟩ : BufTy).Contents (Elt F) → (⟨S100000, .f32⟩ : BufTy).Contents (Elt F)) : (TRef.binary (TRef.of (T := ⟨S100000x8, .f32⟩) main_call2_v6) (TRef.of (T := ⟨S_, .f32⟩) main_call2_cst_1) (TRef.of (T := ⟨S100000, .f32⟩) main_call2_v7) f : HloOp τ sig (Elt F)) = binary main_call2_v6 main_call2_cst_1 main_call2_v7 f := rfl
theorem lsOp11 (f : (⟨S100000, .f32⟩ : BufTy).Contents (Elt F) → (⟨S100000x1, .f32⟩ : BufTy).Contents (Elt F)) : (TRef.unary (TRef.of (T := ⟨S100000, .f32⟩) main_call2_v7) (TRef.of (T := ⟨S100000x1, .f32⟩) main_call2_v8) f : HloOp τ sig (Elt F)) = unary main_call2_v7 main_call2_v8 f := rfl
theorem lsOp12 (f : (⟨S100000x1, .f32⟩ : BufTy).Contents (Elt F) → (⟨S100000x1, .f32⟩ : BufTy).Contents (Elt F)) : (TRef.unary (TRef.of (T := ⟨S100000x1, .f32⟩) main_call2_v8) (TRef.of (T := ⟨S100000x1, .f32⟩) main_call2_v9) f : HloOp τ sig (Elt F)) = unary main_call2_v8 main_call2_v9 f := rfl
theorem lsOp13 (f : (⟨S100000x1, .f32⟩ : BufTy).Contents (Elt F) → (⟨S100000x8, .f32⟩ : BufTy).Contents (Elt F)) : (TRef.unary (TRef.of (T := ⟨S100000x1, .f32⟩) main_call2_v9) (TRef.of (T := ⟨S100000x8, .f32⟩) main_call2_v10) f : HloOp τ sig (Elt F)) = unary main_call2_v9 main_call2_v10 f := rfl
theorem lsOp14 (f : (⟨S100000x8, .f32⟩ : BufTy).Contents (Elt F) → (⟨S100000x8, .f32⟩ : BufTy).Contents (Elt F) → (⟨S100000x8, .f32⟩ : BufTy).Contents (Elt F)) : (TRef.binary (TRef.of (T := ⟨S100000x8, .f32⟩) main_call2_v5) (TRef.of (T := ⟨S100000x8, .f32⟩) main_call2_v10) (TRef.of (T := ⟨S100000x8, .f32⟩) main_v67) f : HloOp τ sig (Elt F)) = binary main_call2_v5 main_call2_v10 main_v67 f := rfl

theorem ls_same : (opsLSCalled : List (HloOp τ sig (Elt F))) = opsLA ++ (opsLB ++ (opsLC ++ opsLD)) := by
  unfold opsLSCalled
  rw [lsOp0, lsOp1, lsOp2, lsOp3, lsOp4, lsOp5, lsOp6, lsOp7, lsOp8, lsOp9, lsOp10, lsOp11, lsOp12, lsOp13, lsOp14]
  rfl

theorem main_eq (c : Dev nD) : main (F := F) c = seq ops :=
  (main_called c).trans (congrArg (fun l : List (HloOp τ sig (Elt F)) => seq (opsG0 ++ (opsG1 ++ (opsG2 ++ (opsL1a ++ (opsL1b ++ (opsL2a ++ (l)))))))) ls_same)
theorem scopedRefs_eq : (Finset.univ.filter fun b : Ref sig .tc => b.isScoped) = ∅ := by decide
theorem scopedSems_eq : (Finset.univ.filter fun sm : SemLoc sig => sm.isScoped .tc) = ∅ := by decide

theorem opsG0_sub : (opsG0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
theorem opsG1_sub : (opsG1 : List (HloOp τ sig (Elt F))).Forall fun op => op.bufs ⊆ tcRefs τ sig :=
  ⟨unary_bufs_sub .., unary_bufs_sub .., ternary_bufs_sub ..⟩
theorem opsG2_sub : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsL1a_sub : (opsL1a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsL1b_sub : (opsL1b : List (HloOp τ sig (Elt F))).Forall fun op => op.bufs ⊆ tcRefs τ sig :=
  ⟨nullary_bufs_sub .., unary_bufs_sub .., binary_bufs_sub ..⟩
theorem opsL2a_sub : (opsL2a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsLA_sub : (opsLA : List (HloOp τ sig (Elt F))).Forall fun op => op.bufs ⊆ tcRefs τ sig :=
  ⟨nullary_bufs_sub .., binary_bufs_sub .., nullary_bufs_sub .., unary_bufs_sub .., binary_bufs_sub ..⟩
theorem opsLB_sub : (opsLB : List (HloOp τ sig (Elt F))).Forall fun op => op.bufs ⊆ tcRefs τ sig :=
  ⟨unary_bufs_sub .., unary_bufs_sub .., binary_bufs_sub ..⟩
theorem opsLC_sub : (opsLC : List (HloOp τ sig (Elt F))).Forall fun op => op.bufs ⊆ tcRefs τ sig :=
  ⟨unary_bufs_sub .., nullary_bufs_sub .., binary_bufs_sub .., unary_bufs_sub ..⟩
theorem opsLD_sub : (opsLD : List (HloOp τ sig (Elt F))).Forall fun op => op.bufs ⊆ tcRefs τ sig :=
  ⟨unary_bufs_sub .., unary_bufs_sub .., binary_bufs_sub ..⟩

/-- Every operation of two lists run one after the other has a property each list's operations have. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append opsG0_sub (forall_append opsG1_sub (forall_append opsG2_sub (forall_append opsL1a_sub (forall_append opsL1b_sub (forall_append opsL2a_sub (forall_append opsLA_sub (forall_append opsLB_sub (forall_append opsLC_sub (opsLD_sub)))))))))

/-- A buffer none of the listed operations writes keeps its contents: each operation's written buffer is another. -/
local macro "keeps" : tactic =>
  `(tactic| exact StableHlo.after_of_forall_not_mem _ _ (List.forall_iff_forall_mem.mp (by
      simp only [List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (V : Valuation τ sig (Elt Ideal))

/-! ## What each stretch leaves unwritten -/

theorem G0_arg0 : after opsG0 V (Proc.devRef .tc main_arg0) = V (Proc.devRef .tc main_arg0) := by keeps
theorem G0_arg1 : after opsG0 V (Proc.devRef .tc main_arg1) = V (Proc.devRef .tc main_arg1) := by keeps
theorem G0_arg2 : after opsG0 V (Proc.devRef .tc main_arg2) = V (Proc.devRef .tc main_arg2) := by keeps
theorem G0_arg3 : after opsG0 V (Proc.devRef .tc main_arg3) = V (Proc.devRef .tc main_arg3) := by keeps
theorem G0_arg4 : after opsG0 V (Proc.devRef .tc main_arg4) = V (Proc.devRef .tc main_arg4) := by keeps
theorem G0_arg5 : after opsG0 V (Proc.devRef .tc main_arg5) = V (Proc.devRef .tc main_arg5) := by keeps
theorem G1_arg0 : after opsG1 V (Proc.devRef .tc main_arg0) = V (Proc.devRef .tc main_arg0) := by keeps
theorem G1_arg1 : after opsG1 V (Proc.devRef .tc main_arg1) = V (Proc.devRef .tc main_arg1) := by keeps
theorem G1_arg2 : after opsG1 V (Proc.devRef .tc main_arg2) = V (Proc.devRef .tc main_arg2) := by keeps
theorem G1_arg3 : after opsG1 V (Proc.devRef .tc main_arg3) = V (Proc.devRef .tc main_arg3) := by keeps
theorem G1_arg4 : after opsG1 V (Proc.devRef .tc main_arg4) = V (Proc.devRef .tc main_arg4) := by keeps
theorem G1_arg5 : after opsG1 V (Proc.devRef .tc main_arg5) = V (Proc.devRef .tc main_arg5) := by keeps
theorem G2_arg0 : after opsG2 V (Proc.devRef .tc main_arg0) = V (Proc.devRef .tc main_arg0) := by keeps
theorem G2_arg1 : after opsG2 V (Proc.devRef .tc main_arg1) = V (Proc.devRef .tc main_arg1) := by keeps
theorem G2_arg2 : after opsG2 V (Proc.devRef .tc main_arg2) = V (Proc.devRef .tc main_arg2) := by keeps
theorem G2_arg3 : after opsG2 V (Proc.devRef .tc main_arg3) = V (Proc.devRef .tc main_arg3) := by keeps
theorem G2_arg4 : after opsG2 V (Proc.devRef .tc main_arg4) = V (Proc.devRef .tc main_arg4) := by keeps
theorem G2_arg5 : after opsG2 V (Proc.devRef .tc main_arg5) = V (Proc.devRef .tc main_arg5) := by keeps
theorem L1a_arg0 : after opsL1a V (Proc.devRef .tc main_arg0) = V (Proc.devRef .tc main_arg0) := by keeps
theorem L1a_arg1 : after opsL1a V (Proc.devRef .tc main_arg1) = V (Proc.devRef .tc main_arg1) := by keeps
theorem L1a_arg2 : after opsL1a V (Proc.devRef .tc main_arg2) = V (Proc.devRef .tc main_arg2) := by keeps
theorem L1a_arg3 : after opsL1a V (Proc.devRef .tc main_arg3) = V (Proc.devRef .tc main_arg3) := by keeps
theorem L1a_arg4 : after opsL1a V (Proc.devRef .tc main_arg4) = V (Proc.devRef .tc main_arg4) := by keeps
theorem L1a_arg5 : after opsL1a V (Proc.devRef .tc main_arg5) = V (Proc.devRef .tc main_arg5) := by keeps
theorem L1b_arg0 : after opsL1b V (Proc.devRef .tc main_arg0) = V (Proc.devRef .tc main_arg0) := by keeps
theorem L1b_arg1 : after opsL1b V (Proc.devRef .tc main_arg1) = V (Proc.devRef .tc main_arg1) := by keeps
theorem L1b_arg2 : after opsL1b V (Proc.devRef .tc main_arg2) = V (Proc.devRef .tc main_arg2) := by keeps
theorem L1b_arg3 : after opsL1b V (Proc.devRef .tc main_arg3) = V (Proc.devRef .tc main_arg3) := by keeps
theorem L1b_arg4 : after opsL1b V (Proc.devRef .tc main_arg4) = V (Proc.devRef .tc main_arg4) := by keeps
theorem L1b_arg5 : after opsL1b V (Proc.devRef .tc main_arg5) = V (Proc.devRef .tc main_arg5) := by keeps
theorem L2a_arg0 : after opsL2a V (Proc.devRef .tc main_arg0) = V (Proc.devRef .tc main_arg0) := by keeps
theorem L2a_arg1 : after opsL2a V (Proc.devRef .tc main_arg1) = V (Proc.devRef .tc main_arg1) := by keeps
theorem L2a_arg2 : after opsL2a V (Proc.devRef .tc main_arg2) = V (Proc.devRef .tc main_arg2) := by keeps
theorem L2a_arg3 : after opsL2a V (Proc.devRef .tc main_arg3) = V (Proc.devRef .tc main_arg3) := by keeps
theorem L2a_arg4 : after opsL2a V (Proc.devRef .tc main_arg4) = V (Proc.devRef .tc main_arg4) := by keeps
theorem L2a_arg5 : after opsL2a V (Proc.devRef .tc main_arg5) = V (Proc.devRef .tc main_arg5) := by keeps
theorem LA_arg0 : after opsLA V (Proc.devRef .tc main_arg0) = V (Proc.devRef .tc main_arg0) := by keeps
theorem LA_arg1 : after opsLA V (Proc.devRef .tc main_arg1) = V (Proc.devRef .tc main_arg1) := by keeps
theorem LA_arg2 : after opsLA V (Proc.devRef .tc main_arg2) = V (Proc.devRef .tc main_arg2) := by keeps
theorem LA_arg3 : after opsLA V (Proc.devRef .tc main_arg3) = V (Proc.devRef .tc main_arg3) := by keeps
theorem LA_arg4 : after opsLA V (Proc.devRef .tc main_arg4) = V (Proc.devRef .tc main_arg4) := by keeps
theorem LA_arg5 : after opsLA V (Proc.devRef .tc main_arg5) = V (Proc.devRef .tc main_arg5) := by keeps
theorem LB_arg0 : after opsLB V (Proc.devRef .tc main_arg0) = V (Proc.devRef .tc main_arg0) := by keeps
theorem LB_arg1 : after opsLB V (Proc.devRef .tc main_arg1) = V (Proc.devRef .tc main_arg1) := by keeps
theorem LB_arg2 : after opsLB V (Proc.devRef .tc main_arg2) = V (Proc.devRef .tc main_arg2) := by keeps
theorem LB_arg3 : after opsLB V (Proc.devRef .tc main_arg3) = V (Proc.devRef .tc main_arg3) := by keeps
theorem LB_arg4 : after opsLB V (Proc.devRef .tc main_arg4) = V (Proc.devRef .tc main_arg4) := by keeps
theorem LB_arg5 : after opsLB V (Proc.devRef .tc main_arg5) = V (Proc.devRef .tc main_arg5) := by keeps
theorem LC_arg0 : after opsLC V (Proc.devRef .tc main_arg0) = V (Proc.devRef .tc main_arg0) := by keeps
theorem LC_arg1 : after opsLC V (Proc.devRef .tc main_arg1) = V (Proc.devRef .tc main_arg1) := by keeps
theorem LC_arg2 : after opsLC V (Proc.devRef .tc main_arg2) = V (Proc.devRef .tc main_arg2) := by keeps
theorem LC_arg3 : after opsLC V (Proc.devRef .tc main_arg3) = V (Proc.devRef .tc main_arg3) := by keeps
theorem LC_arg4 : after opsLC V (Proc.devRef .tc main_arg4) = V (Proc.devRef .tc main_arg4) := by keeps
theorem LC_arg5 : after opsLC V (Proc.devRef .tc main_arg5) = V (Proc.devRef .tc main_arg5) := by keeps
theorem LD_arg0 : after opsLD V (Proc.devRef .tc main_arg0) = V (Proc.devRef .tc main_arg0) := by keeps
theorem LD_arg1 : after opsLD V (Proc.devRef .tc main_arg1) = V (Proc.devRef .tc main_arg1) := by keeps
theorem LD_arg2 : after opsLD V (Proc.devRef .tc main_arg2) = V (Proc.devRef .tc main_arg2) := by keeps
theorem LD_arg3 : after opsLD V (Proc.devRef .tc main_arg3) = V (Proc.devRef .tc main_arg3) := by keeps
theorem LD_arg4 : after opsLD V (Proc.devRef .tc main_arg4) = V (Proc.devRef .tc main_arg4) := by keeps
theorem LD_arg5 : after opsLD V (Proc.devRef .tc main_arg5) = V (Proc.devRef .tc main_arg5) := by keeps
theorem G1_v3 : after opsG1 V (Proc.devRef .tc main_v3) = V (Proc.devRef .tc main_v3) := by keeps
theorem G1_v6 : after opsG1 V (Proc.devRef .tc main_v6) = V (Proc.devRef .tc main_v6) := by keeps
theorem G2_v3 : after opsG2 V (Proc.devRef .tc main_v3) = V (Proc.devRef .tc main_v3) := by keeps
theorem G2_v6 : after opsG2 V (Proc.devRef .tc main_v6) = V (Proc.devRef .tc main_v6) := by keeps
theorem L1a_v3 : after opsL1a V (Proc.devRef .tc main_v3) = V (Proc.devRef .tc main_v3) := by keeps
theorem L1a_v6 : after opsL1a V (Proc.devRef .tc main_v6) = V (Proc.devRef .tc main_v6) := by keeps
theorem L1a_v31 : after opsL1a V (Proc.devRef .tc main_v31) = V (Proc.devRef .tc main_v31) := by keeps
theorem L1b_v3 : after opsL1b V (Proc.devRef .tc main_v3) = V (Proc.devRef .tc main_v3) := by keeps
theorem L1b_v6 : after opsL1b V (Proc.devRef .tc main_v6) = V (Proc.devRef .tc main_v6) := by keeps
theorem L1b_v31 : after opsL1b V (Proc.devRef .tc main_v31) = V (Proc.devRef .tc main_v31) := by keeps
theorem LA_v66 : after opsLA V (Proc.devRef .tc main_v66) = V (Proc.devRef .tc main_v66) := by keeps
theorem LC_call2_v5 : after opsLC V (Proc.devRef .tc main_call2_v5) = V (Proc.devRef .tc main_call2_v5) := by keeps

/-! ## What each stretch computes -/

set_option maxHeartbeats 4000000 in
theorem G0_src : after opsG0 V (Proc.devRef .tc main_v3) = Spec.src (V (Proc.devRef .tc main_arg1)) := by
  after_results_simp
  rfl
set_option maxHeartbeats 4000000 in
theorem G0_dst : after opsG0 V (Proc.devRef .tc main_v6) = Spec.dst (V (Proc.devRef .tc main_arg1)) := by
  after_results_simp
  rfl
set_option maxHeartbeats 4000000 in
theorem G0_pos : after opsG0 V (Proc.devRef .tc main_v12) = Spec.degPos (V (Proc.devRef .tc main_arg1)) := by
  after_results_simp
  rfl
set_option maxHeartbeats 4000000 in
theorem G0_rsqrt : after opsG0 V (Proc.devRef .tc main_v15) = Spec.degRsqrt (V (Proc.devRef .tc main_arg1)) := by
  after_results_simp
  rfl
set_option maxHeartbeats 4000000 in
theorem G0_zero : after opsG0 V (Proc.devRef .tc main_cst_3) = constant (F := Ideal) S_ .f32 0x00000000#32 := by
  after_results_simp
set_option maxHeartbeats 4000000 in
theorem G1_dis : after opsG1 V (Proc.devRef .tc main_v16)
    = Spec.disOf (V (Proc.devRef .tc main_v12)) (V (Proc.devRef .tc main_v15)) (V (Proc.devRef .tc main_cst_3)) := by
  after_results_simp
  rfl
set_option maxHeartbeats 4000000 in
theorem G2_norm : after opsG2 V (Proc.devRef .tc main_v31)
    = Spec.normOf (V (Proc.devRef .tc main_v16)) (V (Proc.devRef .tc main_v3)) (V (Proc.devRef .tc main_v6)) := by
  after_results_simp
  rfl
set_option maxHeartbeats 4000000 in
theorem L1a_biased : after opsL1a V (Proc.devRef .tc main_v48)
    = Spec.biased128 (Spec.aggr128 (V (Proc.devRef .tc main_v3)) (V (Proc.devRef .tc main_v6)) (V (Proc.devRef .tc main_v31))
        (Spec.mm1 (V (Proc.devRef .tc main_arg0)) (V (Proc.devRef .tc main_arg2)))) (V (Proc.devRef .tc main_arg3)) := by
  after_results_simp
  rfl
set_option maxHeartbeats 4000000 in
theorem L1b_relu : after opsL1b V (Proc.devRef .tc main_v49) = Spec.relu (V (Proc.devRef .tc main_v48)) := by
  after_results_simp
  rfl
set_option maxHeartbeats 4000000 in
theorem L2a_logits : after opsL2a V (Proc.devRef .tc main_v66)
    = Spec.logits (Spec.aggr8 (V (Proc.devRef .tc main_v3)) (V (Proc.devRef .tc main_v6)) (V (Proc.devRef .tc main_v31))
        (Spec.mm2 (V (Proc.devRef .tc main_v49)) (V (Proc.devRef .tc main_arg4)))) (V (Proc.devRef .tc main_arg5)) := by
  after_results_simp
  rfl
set_option maxHeartbeats 4000000 in
theorem LA_maxes : after opsLA V (Proc.devRef .tc main_call2_v2) = Spec.rowMaxes (V (Proc.devRef .tc main_v66)) := by
  after_results_simp
  rfl
set_option maxHeartbeats 4000000 in
theorem LB_shift : after opsLB V (Proc.devRef .tc main_call2_v5)
    = Spec.shiftBy (V (Proc.devRef .tc main_v66)) (V (Proc.devRef .tc main_call2_v2)) := by
  after_results_simp
  rfl
set_option maxHeartbeats 4000000 in
theorem LC_sums : after opsLC V (Proc.devRef .tc main_call2_v8) = Spec.rowSums (V (Proc.devRef .tc main_call2_v5)) := by
  after_results_simp
  rfl
set_option maxHeartbeats 4000000 in
theorem LD_out : after opsLD V (Proc.devRef .tc main_v67)
    = Spec.lsmFrom (V (Proc.devRef .tc main_call2_v5)) (V (Proc.devRef .tc main_call2_v8)) := by
  after_results_simp
  rfl

/-! ## The stretches chained -/

/-- The result buffer after the whole line: the staged description of the contents the line started from. -/
theorem result_eq : after ops V (Proc.devRef .tc main_v67)
    = Spec.out (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_out, LC_sums, LC_call2_v5, LB_shift, LA_maxes, LA_v66,
    L2a_logits, L1b_relu, L1b_v3, L1b_v6, L1b_v31, L1b_arg4, L1b_arg5,
    L1a_biased, L1a_v3, L1a_v6, L1a_v31, L1a_arg4, L1a_arg5,
    G2_norm, G2_v3, G2_v6, G2_arg0, G2_arg2, G2_arg3, G2_arg4, G2_arg5,
    G1_dis, G1_v3, G1_v6, G1_arg0, G1_arg2, G1_arg3, G1_arg4, G1_arg5,
    G0_pos, G0_rsqrt, G0_zero, G0_src, G0_dst, G0_arg0, G0_arg2, G0_arg3, G0_arg4, G0_arg5]
  rfl

theorem kept_arg0 : after ops V (Proc.devRef .tc main_arg0) = V (Proc.devRef .tc main_arg0) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg0, LC_arg0, LB_arg0, LA_arg0, L2a_arg0, L1b_arg0, L1a_arg0, G2_arg0, G1_arg0, G0_arg0]
theorem kept_arg1 : after ops V (Proc.devRef .tc main_arg1) = V (Proc.devRef .tc main_arg1) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg1, LC_arg1, LB_arg1, LA_arg1, L2a_arg1, L1b_arg1, L1a_arg1, G2_arg1, G1_arg1, G0_arg1]
theorem kept_arg2 : after ops V (Proc.devRef .tc main_arg2) = V (Proc.devRef .tc main_arg2) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg2, LC_arg2, LB_arg2, LA_arg2, L2a_arg2, L1b_arg2, L1a_arg2, G2_arg2, G1_arg2, G0_arg2]
theorem kept_arg3 : after ops V (Proc.devRef .tc main_arg3) = V (Proc.devRef .tc main_arg3) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg3, LC_arg3, LB_arg3, LA_arg3, L2a_arg3, L1b_arg3, L1a_arg3, G2_arg3, G1_arg3, G0_arg3]
theorem kept_arg4 : after ops V (Proc.devRef .tc main_arg4) = V (Proc.devRef .tc main_arg4) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg4, LC_arg4, LB_arg4, LA_arg4, L2a_arg4, L1b_arg4, L1a_arg4, G2_arg4, G1_arg4, G0_arg4]
theorem kept_arg5 : after ops V (Proc.devRef .tc main_arg5) = V (Proc.devRef .tc main_arg5) := by
  show after (opsG0 ++ (opsG1 ++ (opsG2 ++ (opsL1a ++ (opsL1b ++ (opsL2a ++ (opsLA ++ (opsLB ++ (opsLC ++ (opsLD)))))))))) V _ = _
  rw [StableHlo.after_append, StableHlo.after_append, StableHlo.after_append, StableHlo.after_append, StableHlo.after_append, StableHlo.after_append, StableHlo.after_append, StableHlo.after_append, StableHlo.after_append,
    LD_arg5, LC_arg5, LB_arg5, LA_arg5, L2a_arg5, L1b_arg5, L1a_arg5, G2_arg5, G1_arg5, G0_arg5]

/-! ## The run -/

/-- On every device, from any memory with zero counters, every weakly fair execution of the reference terminates with
    its result at the staged description of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq scopedRefs_eq scopedSems_eq defs main (fun _ => ops) main_eq (fun _ => ops_sub) m ρ)

end Cert.ReferenceIdeal.HandRun

end
-- ==== Proof.lean ====
/-
  A two-layer graph convolution with a log-softmax: the kernel program against its reference, over the extended reals.

  Both programs build the same graph arrays from the edge list with the same host operations — sources and
  destinations with a self loop per node, degrees, and the edge weights deg^(-1/2)[src] · deg^(-1/2)[dst] — and both
  aggregate with the same gathers and scatter-adds; on equal operands those stages give equal arrays and are never
  opened.  The programs differ only in the dense stages, which the kernel program runs as four pipelined regions over
  blocks of 5000 rows: x·W1 and h·W2 as block products into zero accumulators (entry (r, j) of a block is Σ_k of the
  block's row r against column j, the same sum as the whole product's entry; exact arithmetic has no rounding and no
  order), the bias rows added to every row with a maximum with zero, and the row-wise log-softmax
  (z − max z) − log Σ exp (z − max z), which depends on one row alone.  The host spells the row maximum with one more
  maximum against its initial value −∞ and the row sum from an initial 0; neither changes a value.  No law that needs
  finite operands is used: the precondition is not opened.

  The frames are the generated ones (the reference's is its run with the result dropped); the ideal pass rewrote
  nothing, so the idealization claim is trivial; the two results are both the staged description `Spec.out` of the
  arguments.
-/
import proofs.«140870_j15333033247254_1_alg».proof.Defs
import proofs.«140870_j15333033247254_1_alg».proof.Proof.Gen.Kernel
import proofs.«140870_j15333033247254_1_alg».proof.Proof.Gen.Kernel.Skeleton
import proofs.«140870_j15333033247254_1_alg».proof.Proof.Gen.Kernel.Launch
import proofs.«140870_j15333033247254_1_alg».proof.Proof.Gen.Kernel.Points
import proofs.«140870_j15333033247254_1_alg».proof.Proof.Gen.Kernel.Frame
import proofs.«140870_j15333033247254_1_alg».proof.Proof.Gen.KernelIdeal
import proofs.«140870_j15333033247254_1_alg».proof.Proof.Gen.KernelIdeal.Skeleton
import proofs.«140870_j15333033247254_1_alg».proof.Proof.Gen.KernelIdeal.Launch
import proofs.«140870_j15333033247254_1_alg».proof.Proof.Gen.KernelIdeal.Points
import proofs.«140870_j15333033247254_1_alg».proof.Proof.Gen.KernelIdeal.Frame
import proofs.«140870_j15333033247254_1_alg».proof.Proof.Gen.ReferenceIdeal
import proofs.«140870_j15333033247254_1_alg».proof.Proof.Gen.Pre_finite_inputs
import proofs.«140870_j15333033247254_1_alg».proof.Proof.RunVal
import proofs.«140870_j15333033247254_1_alg».proof.Proof.Chain
import proofs.«140870_j15333033247254_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

/-- The ideal pass rewrote no operation. -/
theorem preserves : Cert.preserves_Kernel_KernelIdeal := trivial

/-- Both programs end with the staged description of the arguments in their result buffers. -/
theorem algebraic : Cert.algebraic_KernelIdeal_ReferenceIdeal := by
  intro m ρ m' ρ' _ hagree
  refine ⟨fun c => Cert.ReferenceIdeal.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W9_result m ρ c), (h c).2⟩)
      (Cert.KernelIdeal.RunVal.run_result (F := Ideal) m ρ)
  · refine (θ_run Cert.ReferenceIdeal.defs _ _).mono (fun _ h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
